-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x64 : Shape := ⟨3, ![32, 1024, 64]⟩
abbrev S32x1024x1024 : Shape := ⟨3, ![32, 1024, 1024]⟩
abbrev S32x1024x1 : Shape := ⟨3, ![32, 1024, 1]⟩
abbrev S64x128 : Shape := ⟨2, ![64, 128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S_ : Shape := ⟨0, ![]⟩

class Facts : Prop where
  bcast_S_S32x1024x64 : S_.BroadcastsInDim S32x1024x64 (![] : Fin 0 → Fin S32x1024x64.rank)
  reducesTo_S32x1024x64_S_d0_1_2 : S32x1024x64.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S32x1024x1 : S_.BroadcastsInDim S32x1024x1 (![] : Fin 0 → Fin S32x1024x1.rank)
  reducesTo_S32x1024x1_S_d0_1_2 : S32x1024x1.ReducesTo [0, 1, 2] S_
  bcast_S_S64x128 : S_.BroadcastsInDim S64x128 (![] : Fin 0 → Fin S64x128.rank)
  reducesTo_S64x128_S_d0_1 : S64x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S3x128x128 .f32) (main_arg5 : FVec F S3x128 .f32) (main_arg6 : FVec F S128x64 .f32) (main_arg7 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S3x128x128 .f32 := Host.absf main_arg4
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg5
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_v33

def fn {F : FTy → Type} [FloatOps F] (main_arg0 : FVec F S32x1024x64 .f32) (main_arg1 : FVec F S32x1024x1024 .f32) (main_arg2 : FVec F S32x1024x1 .f32) (main_arg3 : FVec F S64x128 .f32) (main_arg4 : FVec F S3x128x128 .f32) (main_arg5 : FVec F S3x128 .f32) (main_arg6 : FVec F S128x64 .f32) (main_arg7 : FVec F S64 .f32) : IVec S_ 1 :=
  let main_v0 : FVec F S32x1024x64 .f32 := Host.absf main_arg0
  let main_cst : FVec F S_ .f32 := constant S_ .f32 0x7F800000#32
  let main_v1 : FVec F S32x1024x64 .f32 := broadcastInDim S32x1024x64 ![] bcast_S_S32x1024x64 main_cst
  let main_v2 : IVec S32x1024x64 1 := cmpf .olt main_v0 main_v1
  let main_c : IVec S_ 1 := constantI S_ 1 1#1
  let main_v3 : IVec S_ 1 := (fun x v => Host.reduce IntOp.andi x v reducesTo_S32x1024x64_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S32x1024x1 .f32 := Host.absf main_arg2
  let main_cst_2 : FVec F S_ .f32 := constant S_ .f32 0x7F800000#32
  let main_v10 : FVec F S32x1024x1 .f32 := broadcastInDim S32x1024x1 ![] bcast_S_S32x1024x1 main_cst_2
  let main_v11 : IVec S32x1024x1 1 := cmpf .olt main_v9 main_v10
  let main_c_3 : IVec S_ 1 := constantI S_ 1 1#1
  let main_v12 : IVec S_ 1 := (fun x v => Host.reduce IntOp.andi x v reducesTo_S32x1024x1_S_d0_1_2 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_v13 main_v16
-- ==== Kernel.lean ====
abbrev S32x1024x64 : Shape := ⟨3, ![32, 1024, 64]⟩
abbrev S32x1024x1024 : Shape := ⟨3, ![32, 1024, 1024]⟩
abbrev S32x1024x1 : Shape := ⟨3, ![32, 1024, 1]⟩
abbrev S64x128 : Shape := ⟨2, ![64, 128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S2x1024x64 : Shape := ⟨3, ![2, 1024, 64]⟩
abbrev S2x1024x1024 : Shape := ⟨3, ![2, 1024, 1024]⟩
abbrev S2x1024x1 : Shape := ⟨3, ![2, 1024, 1]⟩
abbrev S2048x64 : Shape := ⟨2, ![2048, 64]⟩
abbrev S2048x128 : Shape := ⟨2, ![2048, 128]⟩
abbrev S2x1024x128 : Shape := ⟨3, ![2, 1024, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x64 : Shape := ⟨2, ![1, 64]⟩

abbrev nBuf : Space → Nat
  | .hbm => 9
  | .vmem => 14
  | .smem => 0
  | _ => 0

abbrev bufTy : (tb : Table) → Fin (tcTables nBuf tb) → BufTy
  | .hbm, ⟨0, _⟩ => ⟨S32x1024x64, .f32⟩
  | .hbm, ⟨1, _⟩ => ⟨S32x1024x1024, .f32⟩
  | .hbm, ⟨2, _⟩ => ⟨S32x1024x1, .f32⟩
  | .hbm, ⟨3, _⟩ => ⟨S64x128, .f32⟩
  | .hbm, ⟨4, _⟩ => ⟨S3x128x128, .f32⟩
  | .hbm, ⟨5, _⟩ => ⟨S3x128, .f32⟩
  | .hbm, ⟨6, _⟩ => ⟨S128x64, .f32⟩
  | .hbm, ⟨7, _⟩ => ⟨S64, .f32⟩
  | .hbm, ⟨8, _⟩ => ⟨S32x1024x64, .f32⟩
  | .local _ .vmem, ⟨0, _⟩ => ⟨S2x1024x64, .f32⟩
  | .local _ .vmem, ⟨1, _⟩ => ⟨S2x1024x64, .f32⟩
  | .local _ .vmem, ⟨2, _⟩ => ⟨S2x1024x1024, .f32⟩
  | .local _ .vmem, ⟨3, _⟩ => ⟨S2x1024x1024, .f32⟩
  | .local _ .vmem, ⟨4, _⟩ => ⟨S2x1024x1, .f32⟩
  | .local _ .vmem, ⟨5, _⟩ => ⟨S2x1024x1, .f32⟩
  | .local _ .vmem, ⟨6, _⟩ => ⟨S64x128, .f32⟩
  | .local _ .vmem, ⟨7, _⟩ => ⟨S3x128x128, .f32⟩
  | .local _ .vmem, ⟨8, _⟩ => ⟨S3x128, .f32⟩
  | .local _ .vmem, ⟨9, _⟩ => ⟨S128x64, .f32⟩
  | .local _ .vmem, ⟨10, _⟩ => ⟨S64, .f32⟩
  | .local _ .vmem, ⟨11, _⟩ => ⟨S2x1024x64, .f32⟩
  | .local _ .vmem, ⟨12, _⟩ => ⟨S2x1024x64, .f32⟩
  | .local _ .vmem, ⟨13, _⟩ => ⟨S2x1024x1024, .bf16⟩
  | _, _ => ⟨S32x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x1024x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S2x1024x1024_S2x1024x1024_0_0_0 : ∀ a, (![0, 0, 0] : Fin 3 → Nat) a + S2x1024x1024.size a ≤ S2x1024x1024.size a
  h_S2x1024x1024 : 0 < S2x1024x1024.numel
  bitsLt_bf16_f32 : FTy.bits .bf16 < FTy.bits .f32
  shapeCasts_S2x1024x1024_S2x1024x1024 : S2x1024x1024.ShapeCasts S2x1024x1024
  packedbf16_S2x1024x1024_S2x1024x1024_0_0_0 : (Rect.unit (s := S2x1024x1024) ![0, 0, 0] S2x1024x1024.size inb_S2x1024x1024_S2x1024x1024_0_0_0).PackedRows (EltTy.packing .bf16)
  inb_S2x1024x64_S2x1024x64_0_0_0 : ∀ a, (![0, 0, 0] : Fin 3 → Nat) a + S2x1024x64.size a ≤ S2x1024x64.size a
  h_S2x1024x64 : 0 < S2x1024x64.numel
  shapeCasts_S2x1024x64_S2048x64 : S2x1024x64.ShapeCasts S2048x64
  inb_S64x128_S64x128_0_0 : ∀ a, (![0, 0] : Fin 2 → Nat) a + S64x128.size a ≤ S64x128.size a
  h_S64x128 : 0 < S64x128.numel
  shapeCasts_S2048x128_S2x1024x128 : S2048x128.ShapeCasts S2x1024x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128_S1x128_0_0 : ∀ a, (![0, 0] : Fin 2 → Nat) a + S1x128.size a ≤ S3x128.size a
  h_S1x128 : 0 < S1x128.numel
  shapeCasts_S1x128_S128 : S1x128.ShapeCasts S128
  shapeCasts_S2x1024x128_S2048x128 : S2x1024x128.ShapeCasts S2048x128
  shapeCasts_S128_S1x128 : S128.ShapeCasts S1x128
  broadcasts_S1x128_S2048x128 : S1x128.Broadcasts S2048x128
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  shapeCasts_S2048x64_S2x1024x64 : S2048x64.ShapeCasts S2x1024x64
  inb_S2x1024x1_S2x1024x1_0_0_0 : ∀ a, (![0, 0, 0] : Fin 3 → Nat) a + S2x1024x1.size a ≤ S2x1024x1.size a
  h_S2x1024x1 : 0 < S2x1024x1.numel
  broadcasts_S2x1024x1_S2x1024x64 : S2x1024x1.Broadcasts S2x1024x64
  dot_S2048x64_S64x128_S2048x128_1_0_0_1_n_n_wf : DotDims.WF S2048x64 S64x128 S2048x128 [1] [0] [0] [1] [] []
  dot_S2048x128_S128x128_S2048x128_1_0_0_1_n_n_wf : DotDims.WF S2048x128 S128x128 S2048x128 [1] [0] [0] [1] [] []
  dot_S2x1024x1024_S2x1024x128_S2x1024x128_2_1_1_2_0_0_wf : DotDims.WF S2x1024x1024 S2x1024x128 S2x1024x128 [2] [1] [1] [2] [0] [0]
  dot_S2048x128_S128x64_S2048x64_1_0_0_1_n_n_wf : DotDims.WF S2048x128 S128x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x64.size a ≤ S32x1024x64.size a
  hwx0_0 : ∀ i : grid0.Coords, EltTy.bits .f32 = 32 ∨ (Rect.block (s := S32x1024x64) S2x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x1024.size a ≤ S32x1024x1024.size a
  hwx0_1 : ∀ i : grid0.Coords, EltTy.bits .f32 = 32 ∨ (Rect.block (s := S32x1024x1024) S2x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024x1.size a ≤ S32x1024x1.size a
  hwx0_2 : ∀ i : grid0.Coords, EltTy.bits .f32 = 32 ∨ (Rect.block (s := S32x1024x1) S2x1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x128x128.size a ≤ S3x128x128.size a
  hwx0_4 : ∀ i : grid0.Coords, EltTy.bits .f32 = 32 ∨ (Rect.block (s := S3x128x128) S3x128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x128.size a ≤ S3x128.size a
  hwx0_5 : ∀ i : grid0.Coords, EltTy.bits .f32 = 32 ∨ (Rect.block (s := S3x128) S3x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x1024x64.size a ≤ S32x1024x64.size a
  hwx0_8 : ∀ i : grid0.Coords, EltTy.bits .f32 = 32 ∨ (Rect.block (s := S32x1024x64) S2x1024x64.size (cc0_transform_8 i) (hinb0_8 i)).WholeWords (EltTy.packing .f32)

variable [Facts₀]

def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2x1024x1024_S2x1024x128_S2x1024x128_2_1_1_2_0_0 : DotDims S2x1024x1024 S2x1024x128 S2x1024x128 where
  lhsContracting := [2]
  rhsContracting := [1]
  lhsNonContracting := [1]
  rhsNonContracting := [2]
  lhsBatch := [0]
  rhsBatch := [0]
  wf := dot_S2x1024x1024_S2x1024x128_S2x1024x128_2_1_1_2_0_0_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf

abbrev win0_0 : Pipeline.Window sig grid0 :=
  Pipeline.Window.ofSpec (Memref.whole main_arg0) S2x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S3x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S2x1024x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x1024x64 : Shape := ⟨3, ![32, 1024, 64]⟩
abbrev S32x1024x1024 : Shape := ⟨3, ![32, 1024, 1024]⟩
abbrev S32x1024x1 : Shape := ⟨3, ![32, 1024, 1]⟩
abbrev S64x128 : Shape := ⟨2, ![64, 128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S32x1024x128 : Shape := ⟨3, ![32, 1024, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x1x128 : Shape := ⟨3, ![1, 1, 128]⟩
abbrev S_ : Shape := ⟨0, ![]⟩
abbrev S1x1x64 : Shape := ⟨3, ![1, 1, 64]⟩

abbrev nBuf : Space → Nat
  | .hbm => 60
  | .vmem => 0
  | .smem => 0
  | _ => 0

abbrev bufTy : (tb : Table) → Fin (tcTables nBuf tb) → BufTy
  | .hbm, ⟨0, _⟩ => ⟨S32x1024x64, .f32⟩
  | .hbm, ⟨1, _⟩ => ⟨S32x1024x1024, .f32⟩
  | .hbm, ⟨2, _⟩ => ⟨S32x1024x1, .f32⟩
  | .hbm, ⟨3, _⟩ => ⟨S64x128, .f32⟩
  | .hbm, ⟨4, _⟩ => ⟨S3x128x128, .f32⟩
  | .hbm, ⟨5, _⟩ => ⟨S3x128, .f32⟩
  | .hbm, ⟨6, _⟩ => ⟨S128x64, .f32⟩
  | .hbm, ⟨7, _⟩ => ⟨S64, .f32⟩
  | .hbm, ⟨8, _⟩ => ⟨S32x1024x128, .f32⟩
  | .hbm, ⟨9, _⟩ => ⟨S1x128x128, .f32⟩
  | .hbm, ⟨10, _⟩ => ⟨S128x128, .f32⟩
  | .hbm, ⟨11, _⟩ => ⟨S32x1024x128, .f32⟩
  | .hbm, ⟨12, _⟩ => ⟨S1x128, .f32⟩
  | .hbm, ⟨13, _⟩ => ⟨S128, .f32⟩
  | .hbm, ⟨14, _⟩ => ⟨S1x1x128, .f32⟩
  | .hbm, ⟨15, _⟩ => ⟨S32x1024x128, .f32⟩
  | .hbm, ⟨16, _⟩ => ⟨S32x1024x128, .f32⟩
  | .hbm, ⟨17, _⟩ => ⟨S32x1024x128, .f32⟩
  | .hbm, ⟨18, _⟩ => ⟨S_, .f32⟩
  | .hbm, ⟨19, _⟩ => ⟨S32x1024x128, .f32⟩
  | .hbm, ⟨20, _⟩ => ⟨S32x1024x128, .f32⟩
  | .hbm, ⟨21, _⟩ => ⟨S_, .f32⟩
  | .hbm, ⟨22, _⟩ => ⟨S32x1024x128, .f32⟩
  | .hbm, ⟨23, _⟩ => ⟨S32x1024x128, .f32⟩
  | .hbm, ⟨24, _⟩ => ⟨S1x128x128, .f32⟩
  | .hbm, ⟨25, _⟩ => ⟨S128x128, .f32⟩
  | .hbm, ⟨26, _⟩ => ⟨S32x1024x128, .f32⟩
  | .hbm, ⟨27, _⟩ => ⟨S1x128, .f32⟩
  | .hbm, ⟨28, _⟩ => ⟨S128, .f32⟩
  | .hbm, ⟨29, _⟩ => ⟨S1x1x128, .f32⟩
  | .hbm, ⟨30, _⟩ => ⟨S32x1024x128, .f32⟩
  | .hbm, ⟨31, _⟩ => ⟨S32x1024x128, .f32⟩
  | .hbm, ⟨32, _⟩ => ⟨S32x1024x128, .f32⟩
  | .hbm, ⟨33, _⟩ => ⟨S_, .f32⟩
  | .hbm, ⟨34, _⟩ => ⟨S32x1024x128, .f32⟩
  | .hbm, ⟨35, _⟩ => ⟨S32x1024x128, .f32⟩
  | .hbm, ⟨36, _⟩ => ⟨S_, .f32⟩
  | .hbm, ⟨37, _⟩ => ⟨S32x1024x128, .f32⟩
  | .hbm, ⟨38, _⟩ => ⟨S32x1024x128, .f32⟩
  | .hbm, ⟨39, _⟩ => ⟨S1x128x128, .f32⟩
  | .hbm, ⟨40, _⟩ => ⟨S128x128, .f32⟩
  | .hbm, ⟨41, _⟩ => ⟨S32x1024x128, .f32⟩
  | .hbm, ⟨42, _⟩ => ⟨S1x128, .f32⟩
  | .hbm, ⟨43, _⟩ => ⟨S128, .f32⟩
  | .hbm, ⟨44, _⟩ => ⟨S1x1x128, .f32⟩
  | .hbm, ⟨45, _⟩ => ⟨S32x1024x128, .f32⟩
  | .hbm, ⟨46, _⟩ => ⟨S32x1024x128, .f32⟩
  | .hbm, ⟨47, _⟩ => ⟨S32x1024x128, .f32⟩
  | .hbm, ⟨48, _⟩ => ⟨S_, .f32⟩
  | .hbm, ⟨49, _⟩ => ⟨S32x1024x128, .f32⟩
  | .hbm, ⟨50, _⟩ => ⟨S32x1024x128, .f32⟩
  | .hbm, ⟨51, _⟩ => ⟨S_, .f32⟩
  | .hbm, ⟨52, _⟩ => ⟨S32x1024x128, .f32⟩
  | .hbm, ⟨53, _⟩ => ⟨S32x1024x128, .f32⟩
  | .hbm, ⟨54, _⟩ => ⟨S32x1024x64, .f32⟩
  | .hbm, ⟨55, _⟩ => ⟨S1x1x64, .f32⟩
  | .hbm, ⟨56, _⟩ => ⟨S32x1024x64, .f32⟩
  | .hbm, ⟨57, _⟩ => ⟨S32x1024x64, .f32⟩
  | .hbm, ⟨58, _⟩ => ⟨S32x1024x64, .f32⟩
  | .hbm, ⟨59, _⟩ => ⟨S32x1024x64, .f32⟩
  | _, _ => ⟨S32x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_call0_cst : Ref sig .tc := ⟨.hbm, 21, rfl⟩
abbrev main_call0_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_call1_cst : Ref sig .tc := ⟨.hbm, 36, rfl⟩
abbrev main_call1_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_1 : Ref sig .tc := ⟨.hbm, 48, rfl⟩
abbrev main_v34 : Ref sig .tc := ⟨.hbm, 49, rfl⟩
abbrev main_v35 : Ref sig .tc := ⟨.hbm, 50, rfl⟩
abbrev main_call2_cst : Ref sig .tc := ⟨.hbm, 51, rfl⟩
abbrev main_call2_v0 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]

class Facts₀ : Prop where
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x1x128_2 : S128.BroadcastsInDim S1x1x128 (![2] : Fin 1 → Fin S1x1x128.rank)
  bcast_S1x1x128_S32x1024x128_0_1_2 : S1x1x128.BroadcastsInDim S32x1024x128 (![0, 1, 2] : Fin 3 → Fin S32x1024x128.rank)
  bcast_S_S32x1024x128 : S_.BroadcastsInDim S32x1024x128 (![] : Fin 0 → Fin S32x1024x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S64_S1x1x64_2 : S64.BroadcastsInDim S1x1x64 (![2] : Fin 1 → Fin S1x1x64.rank)
  bcast_S1x1x64_S32x1024x64_0_1_2 : S1x1x64.BroadcastsInDim S32x1024x64 (![0, 1, 2] : Fin 3 → Fin S32x1024x64.rank)
  bcast_S32x1024x1_S32x1024x64_0_1_2 : S32x1024x1.BroadcastsInDim S32x1024x64 (![0, 1, 2] : Fin 3 → Fin S32x1024x64.rank)
  dot_S32x1024x64_S64x128_S32x1024x128_2_0_01_1_n_n_wf : DotDims.WF S32x1024x64 S64x128 S32x1024x128 [2] [0] [0, 1] [1] [] []
  dot_S32x1024x128_S128x128_S32x1024x128_2_0_01_1_n_n_wf : DotDims.WF S32x1024x128 S128x128 S32x1024x128 [2] [0] [0, 1] [1] [] []
  dot_S32x1024x1024_S32x1024x128_S32x1024x128_2_1_1_2_0_0_wf : DotDims.WF S32x1024x1024 S32x1024x128 S32x1024x128 [2] [1] [1] [2] [0] [0]
  dot_S32x1024x128_S128x64_S32x1024x64_2_0_01_1_n_n_wf : DotDims.WF S32x1024x128 S128x64 S32x1024x64 [2] [0] [0, 1] [1] [] []

variable [Facts₀]

def dot_S32x1024x64_S64x128_S32x1024x128_2_0_01_1_n_n : DotDims S32x1024x64 S64x128 S32x1024x128 where
  lhsContracting := [2]
  rhsContracting := [0]
  lhsNonContracting := [0, 1]
  rhsNonContracting := [1]
  lhsBatch := []
  rhsBatch := []
  wf := dot_S32x1024x64_S64x128_S32x1024x128_2_0_01_1_n_n_wf
def dot_S32x1024x128_S128x128_S32x1024x128_2_0_01_1_n_n : DotDims S32x1024x128 S128x128 S32x1024x128 where
  lhsContracting := [2]
  rhsContracting := [0]
  lhsNonContracting := [0, 1]
  rhsNonContracting := [1]
  lhsBatch := []
  rhsBatch := []
  wf := dot_S32x1024x128_S128x128_S32x1024x128_2_0_01_1_n_n_wf
def dot_S32x1024x1024_S32x1024x128_S32x1024x128_2_1_1_2_0_0 : DotDims S32x1024x1024 S32x1024x128 S32x1024x128 where
  lhsContracting := [2]
  rhsContracting := [1]
  lhsNonContracting := [1]
  rhsNonContracting := [2]
  lhsBatch := [0]
  rhsBatch := [0]
  wf := dot_S32x1024x1024_S32x1024x128_S32x1024x128_2_1_1_2_0_0_wf
def dot_S32x1024x128_S128x64_S32x1024x64_2_0_01_1_n_n : DotDims S32x1024x128 S128x64 S32x1024x64 where
  lhsContracting := [2]
  rhsContracting := [0]
  lhsNonContracting := [0, 1]
  rhsNonContracting := [1]
  lhsBatch := []
  rhsBatch := []
  wf := dot_S32x1024x128_S128x64_S32x1024x64_2_0_01_1_n_n_wf

class Facts : Prop extends Facts₀ where

variable [Facts]
-- ==== Proof.Spec.lean ====
/-
  The mathematics both programs compute, for ONE graph, on the extended reals.

  A graph has `n` nodes; `x` holds a feature row per node, `A` is the adjacency matrix, `mask` a number per node.
  The network is: an embedding `h₀ = x · Wₑ`; three graph convolutions, each
  `h ↦ max((A · (h · W + β)) / one, zero)` — a linear message per node plus a bias row, the messages of a node's
  neighbours summed with the adjacency weights, divided by the normalisation constant, rectified —; and a read-out
  `(h · Wₚ + βₚ) · mask`, the mask multiplying every feature of a node. Every sum is a finite sum over `Fin`, every
  product and sum the extended reals' own, the quotient `Ideal.div`. The two constants (`one`, `zero`) stay parameters:
  both programs spell them by the same words, so their values are never needed.

  `graph`, `mat`, `vec`, `col` read a stacked rank-3 array, a matrix, a vector and a keep-dims column by coordinates.
-/
import Idealize.ShloMosaic.PureOps.Ideal
import Idealize.ShloMosaic.Lib.ValueIdx

noncomputable section

namespace Cert.Gcn

open Idealize.ShloMosaic Idealize.ShloMosaic.ValueIdx

/-- Rows times a weight matrix: entry `(r, c)` is `Σ_j x(r, j) · w(j, c)`. -/
def matMul {a k b : ℕ} (x : Fin a → Fin k → EReal) (w : Fin k → Fin b → EReal) : Fin a → Fin b → EReal :=
  fun r c => ∑ j : Fin k, x r j * w j c

/-- One graph convolution: node `r` gathers `Σ_m A(r, m) · ((h · W)(m, c) + β(c))`, divided by `one`, rectified at `zero`. -/
def conv {n d : ℕ} (one zero : EReal) (A : Fin n → Fin n → EReal) (W : Fin d → Fin d → EReal) (β : Fin d → EReal)
    (h : Fin n → Fin d → EReal) : Fin n → Fin d → EReal :=
  fun r c => max (Ideal.div (∑ m : Fin n, A r m * (matMul h W m c + β c)) one) zero

/-- The read-out: `((h · W)(r, c) + β(c)) · mask(r)`. -/
def readout {n d o : ℕ} (W : Fin d → Fin o → EReal) (β : Fin o → EReal) (mask : Fin n → EReal)
    (h : Fin n → Fin d → EReal) : Fin n → Fin o → EReal :=
  fun r c => (matMul h W r c + β c) * mask r

/-- The whole network on one graph: embedding, three convolutions, read-out. -/
def gcn {n f d o : ℕ} (one zero : EReal) (x : Fin n → Fin f → EReal) (A : Fin n → Fin n → EReal) (mask : Fin n → EReal)
    (We : Fin f → Fin d → EReal) (W0 : Fin d → Fin d → EReal) (β0 : Fin d → EReal) (W1 : Fin d → Fin d → EReal)
    (β1 : Fin d → EReal) (W2 : Fin d → Fin d → EReal) (β2 : Fin d → EReal) (Wp : Fin d → Fin o → EReal)
    (βp : Fin o → EReal) : Fin n → Fin o → EReal :=
  readout Wp βp mask (conv one zero A W2 β2 (conv one zero A W1 β1 (conv one zero A W0 β0 (matMul x We))))

/-- Graph `p` of a stack of `a` graphs' arrays: its `[n, d]` slab by coordinates. -/
def graph {a n d : ℕ} (p : Fin a) (h : (⟨3, ![a, n, d]⟩ : Shape).Idx → EReal) : Fin n → Fin d → EReal :=
  fun r j => h (ix3 p r j)

/-- A matrix by coordinates. -/
def mat {k d : ℕ} (w : (⟨2, ![k, d]⟩ : Shape).Idx → EReal) : Fin k → Fin d → EReal := fun j c => w (ix2 j c)

/-- A vector by coordinates. -/
def vec {d : ℕ} (b : (⟨1, ![d]⟩ : Shape).Idx → EReal) : Fin d → EReal := fun c => b (ix1 c)

/-- Graph `p`'s column of a stack of keep-dims columns `[a, n, 1]`. -/
def col {a n : ℕ} (p : Fin a) (v : (⟨3, ![a, n, 1]⟩ : Shape).Idx → EReal) : Fin n → EReal :=
  fun r => v (ix3 p r (0 : Fin 1))

/-- Slab `l` of a stack of matrices `[L, k, d]`, by coordinates. -/
def slab {L k d : ℕ} (l : Fin L) (w : (⟨3, ![L, k, d]⟩ : Shape).Idx → EReal) : Fin k → Fin d → EReal :=
  fun j c => w (ix3 l j c)

/-- Row `l` of a stack of vectors `[L, d]`, by coordinates. -/
def row {L d : ℕ} (l : Fin L) (b : (⟨2, ![L, d]⟩ : Shape).Idx → EReal) : Fin d → EReal := fun c => b (ix2 l c)

/-- THE RESULT ARRAY of the network on a stack of `B` graphs: entry `(b, r, c)` is the network of graph `b`'s rows of the
    feature, adjacency and mask arrays, at node `r` and output feature `c`; the three layers' weights and biases are the
    slabs and rows of their stacks. -/
def stackOut {B n f d o : ℕ} (one zero : EReal) (x0 : (⟨3, ![B, n, f]⟩ : Shape).Idx → EReal)
    (x1 : (⟨3, ![B, n, n]⟩ : Shape).Idx → EReal) (x2 : (⟨3, ![B, n, 1]⟩ : Shape).Idx → EReal)
    (x3 : (⟨2, ![f, d]⟩ : Shape).Idx → EReal) (x4 : (⟨3, ![3, d, d]⟩ : Shape).Idx → EReal)
    (x5 : (⟨2, ![3, d]⟩ : Shape).Idx → EReal) (x6 : (⟨2, ![d, o]⟩ : Shape).Idx → EReal)
    (x7 : (⟨1, ![o]⟩ : Shape).Idx → EReal) : (⟨3, ![B, n, o]⟩ : Shape).Idx → EReal :=
  fun i => gcn one zero (graph (i 0) x0) (graph (i 0) x1) (col (i 0) x2) (mat x3)
    (slab (⟨0, by decide⟩ : Fin 3) x4) (row (⟨0, by decide⟩ : Fin 3) x5)
    (slab (⟨1, by decide⟩ : Fin 3) x4) (row (⟨1, by decide⟩ : Fin 3) x5)
    (slab (⟨2, by decide⟩ : Fin 3) x4) (row (⟨2, by decide⟩ : Fin 3) x5) (mat x6) (vec x7) (i 1) (i 2)

/-- … read at coordinates. -/
theorem stackOut_apply {B n f d o : ℕ} (one zero : EReal) (x0 : (⟨3, ![B, n, f]⟩ : Shape).Idx → EReal)
    (x1 : (⟨3, ![B, n, n]⟩ : Shape).Idx → EReal) (x2 : (⟨3, ![B, n, 1]⟩ : Shape).Idx → EReal)
    (x3 : (⟨2, ![f, d]⟩ : Shape).Idx → EReal) (x4 : (⟨3, ![3, d, d]⟩ : Shape).Idx → EReal)
    (x5 : (⟨2, ![3, d]⟩ : Shape).Idx → EReal) (x6 : (⟨2, ![d, o]⟩ : Shape).Idx → EReal)
    (x7 : (⟨1, ![o]⟩ : Shape).Idx → EReal) (b : Fin B) (r : Fin n) (c : Fin o) :
    stackOut one zero x0 x1 x2 x3 x4 x5 x6 x7 (ix3 b r c)
      = gcn one zero (graph b x0) (graph b x1) (col b x2) (mat x3)
          (slab (⟨0, by decide⟩ : Fin 3) x4) (row (⟨0, by decide⟩ : Fin 3) x5)
          (slab (⟨1, by decide⟩ : Fin 3) x4) (row (⟨1, by decide⟩ : Fin 3) x5)
          (slab (⟨2, by decide⟩ : Fin 3) x4) (row (⟨2, by decide⟩ : Fin 3) x5) (mat x6) (vec x7) r c := rfl

end Cert.Gcn

end
-- ==== Proof.LibGraphDots.lean ====
/-
  Two contractions of stacked arrays read at coordinates, at any extents, on the extended reals.

  • THE STACKED PRODUCT `[B, M, K] × [B, K, N] → [B, M, N]` (one batch axis, the left operand contracted on its last
    axis and the right on its middle one — an einsum `bmk,bkn->bmn`): entry `(p, r, c)` is
    `Σ_k lhs (p, r, k) · rhs (p, k, c)`, both for a matrix-unit product into the zero array (`stacked_matmul_apply`) and
    for the host's `dot_general` (`stacked_dotGeneral_apply`).
  • THE ROWS PRODUCT `[B, M, K] × [K, N] → [B, M, N]` (no batch axis, the left operand's two leading axes kept — an
    einsum `bmk,kn->bmn`): entry `(p, r, c)` is `Σ_k lhs (p, r, k) · rhs (k, c)` for the host's `dot_general`
    (`rows_dotGeneral_apply`).

  The dimension numbers are the records `stackedDims` and `rowsDims` over a given well-formedness proof; a printed
  record with the same six lists unfolds to one of them. In each proof the operand indices are computed axis by axis
  (a batch or kept axis reads the result's coordinate, the contracted axis the contraction's one coordinate).
-/
import Idealize.ShloMosaic.Lib.ValueIdx
import Idealize.ShloMosaic.PureOps.Ideal.Laws

namespace Cert.GraphDots

open Idealize.ShloMosaic Idealize.ShloMosaic.ValueIdx

variable {B M K N : ℕ}

/-- An axis is not in a one-element list of axes when its number differs from that element's. -/
theorem not_mem_single {r : ℕ} {x y : Fin r} (h : x.val ≠ y.val) : x ∉ [y] :=
  fun hm => h (congrArg Fin.val (List.mem_singleton.mp hm))

/-! ## The stacked product -/

/-- `bmk,bkn->bmn`: batch axis 0 of both operands, the left's axis 2 contracted with the right's axis 1. -/
def stackedDims
    (wf : DotDims.WF (⟨3, ![B, M, K]⟩ : Shape) (⟨3, ![B, K, N]⟩ : Shape) (⟨3, ![B, M, N]⟩ : Shape) [2] [1] [1] [2] [0] [0]) :
    DotDims (⟨3, ![B, M, K]⟩ : Shape) (⟨3, ![B, K, N]⟩ : Shape) (⟨3, ![B, M, N]⟩ : Shape) :=
  ⟨[2], [1], [1], [2], [0], [0], wf⟩

section Stacked

variable (wf : DotDims.WF (⟨3, ![B, M, K]⟩ : Shape) (⟨3, ![B, K, N]⟩ : Shape) (⟨3, ![B, M, N]⟩ : Shape) [2] [1] [1] [2] [0] [0])

theorem stacked_lhs0 (j : (⟨3, ![B, M, N]⟩ : Shape).Idx) (q : (stackedDims wf).contr.Idx) :
    ((stackedDims wf).lhsIdx j q (0 : Fin (⟨3, ![B, M, K]⟩ : Shape).rank)).val = (j 0).val := by
  unfold DotDims.lhsIdx
  rw [dif_pos (show (0 : Fin (⟨3, ![B, M, K]⟩ : Shape).rank) ∈ (stackedDims wf).lhsBatch from List.mem_singleton.mpr rfl)]
  rfl

theorem stacked_lhs1 (j : (⟨3, ![B, M, N]⟩ : Shape).Idx) (q : (stackedDims wf).contr.Idx) :
    ((stackedDims wf).lhsIdx j q (1 : Fin (⟨3, ![B, M, K]⟩ : Shape).rank)).val = (j 1).val := by
  unfold DotDims.lhsIdx
  rw [dif_neg (show ¬(1 : Fin (⟨3, ![B, M, K]⟩ : Shape).rank) ∈ (stackedDims wf).lhsBatch from
      not_mem_single Nat.one_ne_zero),
    dif_pos (show (1 : Fin (⟨3, ![B, M, K]⟩ : Shape).rank) ∈ (stackedDims wf).lhsNonContracting from
      List.mem_singleton.mpr rfl)]
  rfl

theorem stacked_rhs0 (j : (⟨3, ![B, M, N]⟩ : Shape).Idx) (q : (stackedDims wf).contr.Idx) :
    ((stackedDims wf).rhsIdx j q (0 : Fin (⟨3, ![B, K, N]⟩ : Shape).rank)).val = (j 0).val := by
  unfold DotDims.rhsIdx
  rw [dif_pos (show (0 : Fin (⟨3, ![B, K, N]⟩ : Shape).rank) ∈ (stackedDims wf).rhsBatch from List.mem_singleton.mpr rfl)]
  rfl

theorem stacked_rhs2 (j : (⟨3, ![B, M, N]⟩ : Shape).Idx) (q : (stackedDims wf).contr.Idx) :
    ((stackedDims wf).rhsIdx j q (2 : Fin (⟨3, ![B, K, N]⟩ : Shape).rank)).val = (j 2).val := by
  unfold DotDims.rhsIdx
  rw [dif_neg (show ¬(2 : Fin (⟨3, ![B, K, N]⟩ : Shape).rank) ∈ (stackedDims wf).rhsBatch from
      not_mem_single (Nat.succ_ne_zero 1)),
    dif_pos (show (2 : Fin (⟨3, ![B, K, N]⟩ : Shape).rank) ∈ (stackedDims wf).rhsNonContracting from
      List.mem_singleton.mpr rfl)]
  rfl

/-- The contraction sum of the stacked product, re-indexed by the contracted coordinate. -/
theorem stacked_sum (lhs : (⟨3, ![B, M, K]⟩ : Shape).Idx → EReal) (rhs : (⟨3, ![B, K, N]⟩ : Shape).Idx → EReal)
    (p : Fin B) (r : Fin M) (c : Fin N) :
    ∑ q : (stackedDims wf).contr.Idx,
        lhs ((stackedDims wf).lhsIdx (ix3 p r c) q) * rhs ((stackedDims wf).rhsIdx (ix3 p r c) q)
      = ∑ k : Fin K, lhs (ix3 p r k) * rhs (ix3 p k c) := by
  rw [← Equiv.sum_comp (contrEquiv1 (stackedDims wf) K rfl rfl).symm]
  refine Finset.sum_congr rfl fun k _ => ?_
  have hk := contrEquiv1_symm_val (stackedDims wf) K rfl rfl k
  have el : (stackedDims wf).lhsIdx (ix3 p r c) ((contrEquiv1 (stackedDims wf) K rfl rfl).symm k) = ix3 p r k :=
    funext fun a => Fin.ext (by
      match a with
      | ⟨0, _⟩ => exact stacked_lhs0 wf _ _
      | ⟨1, _⟩ => exact stacked_lhs1 wf _ _
      | ⟨2, _⟩ => exact ((stackedDims wf).lhsIdx_val_of_single rfl _ _).trans hk)
  have er : (stackedDims wf).rhsIdx (ix3 p r c) ((contrEquiv1 (stackedDims wf) K rfl rfl).symm k) = ix3 p k c :=
    funext fun a => Fin.ext (by
      match a with
      | ⟨0, _⟩ => exact stacked_rhs0 wf _ _
      | ⟨1, _⟩ => exact ((stackedDims wf).rhsIdx_val_of_single rfl _ _).trans hk
      | ⟨2, _⟩ => exact stacked_rhs2 wf _ _)
  rw [el, er]

/-- The matrix unit's stacked product into the zero array, at `(p, r, c)`. -/
theorem stacked_matmul_apply {φ₁ φ₂ : FTy} (prec : Option ContractPrecision) (lhs : FVec Ideal ⟨3, ![B, M, K]⟩ φ₁)
    (rhs : FVec Ideal ⟨3, ![B, K, N]⟩ φ₂) (p : Fin B) (r : Fin M) (c : Fin N) :
    FloatOps.matmul (stackedDims wf) prec lhs rhs (constant ⟨3, ![B, M, N]⟩ .f32 0x00000000#32) (ix3 p r c)
      = ∑ k : Fin K, lhs (ix3 p r k) * rhs (ix3 p k c) :=
  (Ideal.matmul_constant_zero_apply (stackedDims wf) prec lhs rhs (ix3 p r c)).trans (stacked_sum wf lhs rhs p r c)

/-- The host's stacked `dot_general`, at `(p, r, c)`. -/
theorem stacked_dotGeneral_apply {φ₁ φ₂ : FTy} (prec : Option ContractPrecision) (sched : HostSchedule)
    (lhs : FVec Ideal ⟨3, ![B, M, K]⟩ φ₁) (rhs : FVec Ideal ⟨3, ![B, K, N]⟩ φ₂) (p : Fin B) (r : Fin M) (c : Fin N) :
    FloatOps.dotGeneral (stackedDims wf) prec sched lhs rhs (ix3 p r c) = ∑ k : Fin K, lhs (ix3 p r k) * rhs (ix3 p k c) :=
  (Ideal.dotGeneral_apply (stackedDims wf) prec sched lhs rhs (ix3 p r c)).trans (stacked_sum wf lhs rhs p r c)

end Stacked

/-! ## The rows product -/

/-- `bmk,kn->bmn`: no batch axis, the left operand's last axis contracted with the right's first. -/
def rowsDims
    (wf : DotDims.WF (⟨3, ![B, M, K]⟩ : Shape) (⟨2, ![K, N]⟩ : Shape) (⟨3, ![B, M, N]⟩ : Shape) [2] [0] [0, 1] [1] [] []) :
    DotDims (⟨3, ![B, M, K]⟩ : Shape) (⟨2, ![K, N]⟩ : Shape) (⟨3, ![B, M, N]⟩ : Shape) :=
  ⟨[2], [0], [0, 1], [1], [], [], wf⟩

section Rows

variable (wf : DotDims.WF (⟨3, ![B, M, K]⟩ : Shape) (⟨2, ![K, N]⟩ : Shape) (⟨3, ![B, M, N]⟩ : Shape) [2] [0] [0, 1] [1] [] [])

theorem rows_lhs0 (j : (⟨3, ![B, M, N]⟩ : Shape).Idx) (q : (rowsDims wf).contr.Idx) :
    ((rowsDims wf).lhsIdx j q (0 : Fin (⟨3, ![B, M, K]⟩ : Shape).rank)).val = (j 0).val := by
  unfold DotDims.lhsIdx
  rw [dif_neg (show ¬(0 : Fin (⟨3, ![B, M, K]⟩ : Shape).rank) ∈ (rowsDims wf).lhsBatch from List.not_mem_nil),
    dif_pos (show (0 : Fin (⟨3, ![B, M, K]⟩ : Shape).rank) ∈ (rowsDims wf).lhsNonContracting from
      List.mem_cons.mpr (Or.inl rfl))]
  rfl

theorem rows_lhs1 (j : (⟨3, ![B, M, N]⟩ : Shape).Idx) (q : (rowsDims wf).contr.Idx) :
    ((rowsDims wf).lhsIdx j q (1 : Fin (⟨3, ![B, M, K]⟩ : Shape).rank)).val = (j 1).val := by
  unfold DotDims.lhsIdx
  rw [dif_neg (show ¬(1 : Fin (⟨3, ![B, M, K]⟩ : Shape).rank) ∈ (rowsDims wf).lhsBatch from List.not_mem_nil),
    dif_pos (show (1 : Fin (⟨3, ![B, M, K]⟩ : Shape).rank) ∈ (rowsDims wf).lhsNonContracting from
      List.mem_cons.mpr (Or.inr (List.mem_singleton.mpr rfl)))]
  rfl

theorem rows_rhs1 (j : (⟨3, ![B, M, N]⟩ : Shape).Idx) (q : (rowsDims wf).contr.Idx) :
    ((rowsDims wf).rhsIdx j q (1 : Fin (⟨2, ![K, N]⟩ : Shape).rank)).val = (j 2).val := by
  unfold DotDims.rhsIdx
  rw [dif_neg (show ¬(1 : Fin (⟨2, ![K, N]⟩ : Shape).rank) ∈ (rowsDims wf).rhsBatch from List.not_mem_nil),
    dif_pos (show (1 : Fin (⟨2, ![K, N]⟩ : Shape).rank) ∈ (rowsDims wf).rhsNonContracting from List.mem_singleton.mpr rfl)]
  rfl

/-- The contraction sum of the rows product, re-indexed by the contracted coordinate. -/
theorem rows_sum (lhs : (⟨3, ![B, M, K]⟩ : Shape).Idx → EReal) (rhs : (⟨2, ![K, N]⟩ : Shape).Idx → EReal)
    (p : Fin B) (r : Fin M) (c : Fin N) :
    ∑ q : (rowsDims wf).contr.Idx,
        lhs ((rowsDims wf).lhsIdx (ix3 p r c) q) * rhs ((rowsDims wf).rhsIdx (ix3 p r c) q)
      = ∑ k : Fin K, lhs (ix3 p r k) * rhs (ix2 k c) := by
  rw [← Equiv.sum_comp (contrEquiv1 (rowsDims wf) K rfl rfl).symm]
  refine Finset.sum_congr rfl fun k _ => ?_
  have hk := contrEquiv1_symm_val (rowsDims wf) K rfl rfl k
  have el : (rowsDims wf).lhsIdx (ix3 p r c) ((contrEquiv1 (rowsDims wf) K rfl rfl).symm k) = ix3 p r k :=
    funext fun a => Fin.ext (by
      match a with
      | ⟨0, _⟩ => exact rows_lhs0 wf _ _
      | ⟨1, _⟩ => exact rows_lhs1 wf _ _
      | ⟨2, _⟩ => exact ((rowsDims wf).lhsIdx_val_of_single rfl _ _).trans hk)
  have er : (rowsDims wf).rhsIdx (ix3 p r c) ((contrEquiv1 (rowsDims wf) K rfl rfl).symm k) = ix2 k c :=
    funext fun a => Fin.ext (by
      match a with
      | ⟨0, _⟩ => exact ((rowsDims wf).rhsIdx_val_of_single rfl _ _).trans hk
      | ⟨1, _⟩ => exact rows_rhs1 wf _ _)
  rw [el, er]

/-- The host's rows `dot_general`, at `(p, r, c)`. -/
theorem rows_dotGeneral_apply {φ₁ φ₂ : FTy} (prec : Option ContractPrecision) (sched : HostSchedule)
    (lhs : FVec Ideal ⟨3, ![B, M, K]⟩ φ₁) (rhs : FVec Ideal ⟨2, ![K, N]⟩ φ₂) (p : Fin B) (r : Fin M) (c : Fin N) :
    FloatOps.dotGeneral (rowsDims wf) prec sched lhs rhs (ix3 p r c) = ∑ k : Fin K, lhs (ix3 p r k) * rhs (ix2 k c) :=
  (Ideal.dotGeneral_apply (rowsDims wf) prec sched lhs rhs (ix3 p r c)).trans (rows_sum wf lhs rhs p r c)

end Rows

end Cert.GraphDots
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.LibRank3Layout.lean ====
/-
  Rank-3 layout operations read at coordinates — the forms a body meets when it compares every entry of an `[a, b]`
  block with every entry of a length-`n` vector and then flattens the two leading axes for a matrix product:

  • a TRAILING unit axis added by a shape cast, `[a, b] → [a, b, 1]` (`shapeCast_ab_ab1_apply`);
  • a vector laid along the LAST axis by a shape cast, `[n] → [1, 1, n]` (`shapeCast_n_11n_apply`);
  • the broadcast of the first along the last axis, `[a, b, 1] → [a, b, n]` (`broadcastTo_ab1_abn_apply`), and of the
    second along the two leading axes, `[1, 1, n] → [a, b, n]` (`broadcastTo_11n_abn_apply`);
  • the two composites, which read `(r, s, k)` at `(r, s)` of the block (`column_apply`) and at `k` of the vector
    (`row_apply`);
  • the two leading axes MERGED, `[a, b, n] → [m, n]` with `m = a·b`, and SPLIT again, `[m, d] → [a, b, d]`: row
    `j = r·b + s` of the flat array is row `(r, s)` of the stacked one (`shapeCast_abn_mn_apply`,
    `shapeCast_md_abd_apply`; the flat row is passed with the equation `j = r·b + s`, so that a literal extent such
    as `4096` need not be recognised as a product).

  Each is the library's `shapeCast_apply` (equal row-major positions) or `broadcastTo_apply` (a unit axis reads
  coordinate `0`) with both indices written by coordinates, at every extent.
-/
import Idealize.ShloMosaic.Lib.Pipeline.Value
import Idealize.ShloMosaic.Lib.ValueIdx

namespace Cert.Rank3Layout

open Idealize.ShloMosaic Idealize.ShloMosaic.ValueIdx

variable {α : Type}

/-- An `[a, b]` array cast to `[a, b, 1]` reads, at `(r, s, u)`, the operand at `(r, s)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (r : Fin a) (s : Fin b) (u : Fin 1) :
    shapeCast ⟨3, ![a, b, 1]⟩ x h (ix3 r s u) = x (ix2 r s) :=
  shapeCast_apply x h _ _ (by
    have hu : u.val = 0 := by omega
    rw [Shape.rowMajor_val_two, Shape.rowMajor_val_three]
    show r.val * b + s.val = (r.val * b + s.val) * 1 + u.val
    rw [hu, Nat.mul_one, Nat.add_zero])

/-- An `[n]` vector cast to `[1, 1, n]` reads, at `(u, u', k)`, the operand at `k`, whatever the unit coordinates. -/
theorem shapeCast_n_11n_apply {n : ℕ} (q : (⟨1, ![n]⟩ : Shape).Idx → α)
    (h : (⟨1, ![n]⟩ : Shape).ShapeCasts ⟨3, ![1, 1, n]⟩) (u u' : Fin 1) (k : Fin n) :
    shapeCast ⟨3, ![1, 1, n]⟩ q h (ix3 u u' k) = q (ix1 k) :=
  shapeCast_apply q h _ _ (by
    have hu : u.val = 0 := by omega
    have hu' : u'.val = 0 := by omega
    rw [Shape.rowMajor_val_one, Shape.rowMajor_val_three]
    show k.val = (u.val * 1 + u'.val) * n + k.val
    rw [hu, hu']; simp)

/-- An `[a, b, 1]` array broadcast to `[a, b, n]` reads, at `(r, s, k)`, the operand at `(r, s, 0)`. -/
theorem broadcastTo_ab1_abn_apply {a b n : ℕ} (y : (⟨3, ![a, b, 1]⟩ : Shape).Idx → α)
    (h : (⟨3, ![a, b, 1]⟩ : Shape).Broadcasts ⟨3, ![a, b, n]⟩) (r : Fin a) (s : Fin b) (k : Fin n) :
    broadcastTo ⟨3, ![a, b, n]⟩ y h (ix3 r s k) = y (ix3 r s (0 : Fin 1)) := by
  refine broadcastTo_apply y h (ix3 r s k) (ix3 r s (0 : Fin 1)) fun ax => ?_
  match ax with
  | ⟨0, _⟩ =>
    show r.val = if a = 1 then 0 else r.val
    split
    · have := r.isLt; omega
    · rfl
  | ⟨1, _⟩ =>
    show s.val = if b = 1 then 0 else s.val
    split
    · have := s.isLt; omega
    · rfl
  | ⟨2, _⟩ => rfl

/-- A `[1, 1, n]` array broadcast to `[a, b, n]` reads, at `(r, s, k)`, the operand at `(0, 0, k)`. -/
theorem broadcastTo_11n_abn_apply {a b n : ℕ} (q : (⟨3, ![1, 1, n]⟩ : Shape).Idx → α)
    (h : (⟨3, ![1, 1, n]⟩ : Shape).Broadcasts ⟨3, ![a, b, n]⟩) (r : Fin a) (s : Fin b) (k : Fin n) :
    broadcastTo ⟨3, ![a, b, n]⟩ q h (ix3 r s k) = q (ix3 (0 : Fin 1) (0 : Fin 1) k) := by
  refine broadcastTo_apply q h (ix3 r s k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

/-- An `[a, b]` block given a trailing unit axis and broadcast along it: `(r, s, k)` reads the block at `(r, s)`. -/
theorem column_apply {a b n : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, n]⟩)
    (r : Fin a) (s : Fin b) (k : Fin n) :
    broadcastTo ⟨3, ![a, b, n]⟩ (shapeCast ⟨3, ![a, b, 1]⟩ x hc) hb (ix3 r s k) = x (ix2 r s) :=
  (broadcastTo_ab1_abn_apply _ hb r s k).trans (shapeCast_ab_ab1_apply x hc r s 0)

/-- A length-`n` vector laid along the last axis and broadcast over the two leading ones: `(r, s, k)` reads it at `k`. -/
theorem row_apply {a b n : ℕ} (q : (⟨1, ![n]⟩ : Shape).Idx → α)
    (hc : (⟨1, ![n]⟩ : Shape).ShapeCasts ⟨3, ![1, 1, n]⟩) (hb : (⟨3, ![1, 1, n]⟩ : Shape).Broadcasts ⟨3, ![a, b, n]⟩)
    (r : Fin a) (s : Fin b) (k : Fin n) :
    broadcastTo ⟨3, ![a, b, n]⟩ (shapeCast ⟨3, ![1, 1, n]⟩ q hc) hb (ix3 r s k) = q (ix1 k) :=
  (broadcastTo_11n_abn_apply _ hb r s k).trans (shapeCast_n_11n_apply q hc 0 0 k)

/-- The two leading axes merged: an `[a, b, n]` array cast to `[m, n]` reads, at `(j, k)` with `j = r·b + s`, the
    operand at `(r, s, k)`. -/
theorem shapeCast_abn_mn_apply {a b n m : ℕ} (w : (⟨3, ![a, b, n]⟩ : Shape).Idx → α)
    (h : (⟨3, ![a, b, n]⟩ : Shape).ShapeCasts ⟨2, ![m, n]⟩) (r : Fin a) (s : Fin b) (k : Fin n) (j : Fin m)
    (hj : j.val = r.val * b + s.val) :
    shapeCast ⟨2, ![m, n]⟩ w h (ix2 j k) = w (ix3 r s k) :=
  shapeCast_apply w h _ _ (by
    rw [Shape.rowMajor_val_three, Shape.rowMajor_val_two]
    show (r.val * b + s.val) * n + k.val = j.val * n + k.val
    rw [hj])

/-- The leading axis split in two: an `[m, d]` array cast to `[a, b, d]` reads, at `(r, s, e)`, the operand at `(j, e)`
    with `j = r·b + s`. -/
theorem shapeCast_md_abd_apply {a b d m : ℕ} (z : (⟨2, ![m, d]⟩ : Shape).Idx → α)
    (h : (⟨2, ![m, d]⟩ : Shape).ShapeCasts ⟨3, ![a, b, d]⟩) (r : Fin a) (s : Fin b) (e : Fin d) (j : Fin m)
    (hj : j.val = r.val * b + s.val) :
    shapeCast ⟨3, ![a, b, d]⟩ z h (ix3 r s e) = z (ix2 j e) :=
  shapeCast_apply z h _ _ (by
    rw [Shape.rowMajor_val_two, Shape.rowMajor_val_three]
    show j.val * d + e.val = (r.val * b + s.val) * d + e.val
    rw [hj])

end Cert.Rank3Layout
-- ==== Proof.LibLeadingAxisLayout.lean ====
/-
  Layout operations that add a LEADING unit axis and spread along it, read at coordinates, at every extent:

  • a stack of one matrix spread along the leading axis, `[1, b, n] → [a, b, n]`: entry `(r, s, k)` is entry
    `(0, s, k)` of the operand (`broadcastTo_1bn_abn_apply`);
  • a vector laid as one row and spread over `m` rows, `[n] → [1, n] → [m, n]`: entry `(j, v)` is the vector's
    entry `v` (`rows_apply`) — a bias added to every row of a matrix.

  Each is the library's `broadcastTo_apply` (a unit axis reads coordinate `0`) or its rank-2 forms composed, with
  both indices written by coordinates.
-/
import Idealize.ShloMosaic.Lib.Pipeline.Value
import Idealize.ShloMosaic.Lib.ValueIdx
import Idealize.ShloMosaic.Lib.ValueLayout

namespace Cert.LeadingAxisLayout

open Idealize.ShloMosaic Idealize.ShloMosaic.ValueIdx

variable {α : Type}

/-- A `[1, b, n]` array broadcast to `[a, b, n]` reads, at `(r, s, k)`, the operand at `(0, s, k)`. -/
theorem broadcastTo_1bn_abn_apply {a b n : ℕ} (y : (⟨3, ![1, b, n]⟩ : Shape).Idx → α)
    (h : (⟨3, ![1, b, n]⟩ : Shape).Broadcasts ⟨3, ![a, b, n]⟩) (r : Fin a) (s : Fin b) (k : Fin n) :
    broadcastTo ⟨3, ![a, b, n]⟩ y h (ix3 r s k) = y (ix3 (0 : Fin 1) s k) := by
  refine broadcastTo_apply y h (ix3 r s k) (ix3 (0 : Fin 1) s k) fun ax => ?_
  match ax with
  | ⟨0, _⟩ => rfl
  | ⟨1, _⟩ =>
    show s.val = if b = 1 then 0 else s.val
    split
    · have := s.isLt; omega
    · rfl
  | ⟨2, _⟩ =>
    show k.val = if n = 1 then 0 else k.val
    split
    · have := k.isLt; omega
    · rfl

/-- A vector laid as one row and spread over `m` rows reads, at `(j, v)`, the vector at `v`. -/
theorem rows_apply {m n : ℕ} (q : (⟨1, ![n]⟩ : Shape).Idx → α) (hc : (⟨1, ![n]⟩ : Shape).ShapeCasts ⟨2, ![1, n]⟩)
    (hb : (⟨2, ![1, n]⟩ : Shape).Broadcasts ⟨2, ![m, n]⟩) (j : Fin m) (v : Fin n) :
    broadcastTo ⟨2, ![m, n]⟩ (shapeCast ⟨2, ![1, n]⟩ q hc) hb (ix2 j v) = q (ix1 v) :=
  (broadcastTo_1b_ab_apply _ hb j v).trans (shapeCast_a_1a_apply q hc 0 v)

end Cert.LeadingAxisLayout
-- ==== Proof.KernelLayers.lean ====
/-
  The steps of the network as a kernel body computes them on a BLOCK of `a` graphs, at any extents, and what each
  step holds graph by graph on the extended reals.

  A kernel body folds the graph axis and the node axis of a block `[a, n, d]` into one row axis `[m, d]`, `m = a·n`,
  for every product with a weight matrix (one matrix-unit product for all the block's nodes), unfolds the result, and
  uses a stacked product only for the aggregation with the adjacency block. Row `p·n + r` of a folded array is node `r`
  of graph `p`; so, graph by graph:

  • `kEmbed` (fold, product with the embedding matrix, unfold) is `x · Wₑ`;
  • `kMsg` (fold, product with a weight matrix, a bias row spread over the rows and added, unfold) is `h · W + β`;
  • `kConv` (the stacked product of the adjacency block with the messages, divided by a spread constant, the maximum
    with a spread constant) is the graph convolution `Gcn.conv`;
  • `kReadout` (messages with the projection weights, times the mask column spread over the features) is `Gcn.readout`.

  Changes of float format inside a body (a narrowing before each product) are the identity on the extended reals.
-/
import proofs.«125081_j28114855919656_2_alg».proof.Proof.Spec
import proofs.«125081_j28114855919656_2_alg».proof.Proof.LibGraphDots
import proofs.«125081_j28114855919656_2_alg».proof.Proof.LibPlainMatmul
import proofs.«125081_j28114855919656_2_alg».proof.Proof.LibRank3Layout
import proofs.«125081_j28114855919656_2_alg».proof.Proof.LibLeadingAxisLayout

noncomputable section

namespace Cert.KernelLayers

open Idealize.ShloMosaic Idealize.ShloMosaic.ValueIdx Cert.Gcn Cert.GraphDots

/-- Row `p·n + r` of the folded array exists: it is below `a·n`. -/
theorem flat_lt {a n : ℕ} (p : Fin a) (r : Fin n) : p.val * n + r.val < a * n :=
  calc p.val * n + r.val < p.val * n + n := Nat.add_lt_add_left r.isLt _
    _ = (p.val + 1) * n := by rw [Nat.add_mul, Nat.one_mul]
    _ ≤ a * n := Nat.mul_le_mul_right n p.isLt

section Defs

variable {F : FTy → Type} [FloatOps F] {a n f d e m : ℕ}

/-- The embedding: the block's rows folded, one product with the embedding matrix into zero, the rows unfolded. -/
def kEmbed (hlt : FTy.bits .bf16 < FTy.bits .f32) (h1 : (⟨3, ![a, n, f]⟩ : Shape).ShapeCasts ⟨2, ![m, f]⟩)
    (h2 : (⟨2, ![m, d]⟩ : Shape).ShapeCasts ⟨3, ![a, n, d]⟩) (x : FVec F ⟨3, ![a, n, f]⟩ .f32)
    (we : FVec F ⟨2, ![f, d]⟩ .f32) : FVec F ⟨3, ![a, n, d]⟩ .f32 :=
  shapeCast ⟨3, ![a, n, d]⟩
    (matmul (DotDims.plain m f d) none (shapeCast ⟨2, ![m, f]⟩ (truncf .bf16 x hlt) h1) (truncf .bf16 we hlt)
      (constant ⟨2, ![m, d]⟩ .f32 0x00000000#32)) h2

/-- The messages: rows folded, a product with a weight matrix into zero, a bias vector laid as a row, spread over the
    rows and added, the rows unfolded. -/
def kMsg (hlt : FTy.bits .bf16 < FTy.bits .f32) (h1 : (⟨3, ![a, n, d]⟩ : Shape).ShapeCasts ⟨2, ![m, d]⟩)
    (h2 : (⟨2, ![m, e]⟩ : Shape).ShapeCasts ⟨3, ![a, n, e]⟩) (hv : (⟨1, ![e]⟩ : Shape).ShapeCasts ⟨2, ![1, e]⟩)
    (hb : (⟨2, ![1, e]⟩ : Shape).Broadcasts ⟨2, ![m, e]⟩) (h : FVec F ⟨3, ![a, n, d]⟩ .f32)
    (w : FVec F ⟨2, ![d, e]⟩ .f32) (β : FVec F ⟨1, ![e]⟩ .f32) : FVec F ⟨3, ![a, n, e]⟩ .f32 :=
  shapeCast ⟨3, ![a, n, e]⟩
    (addf
      (matmul (DotDims.plain m d e) none (shapeCast ⟨2, ![m, d]⟩ (truncf .bf16 h hlt) h1) (truncf .bf16 w hlt)
        (constant ⟨2, ![m, e]⟩ .f32 0x00000000#32))
      (broadcastTo ⟨2, ![m, e]⟩ (shapeCast ⟨2, ![1, e]⟩ β hv) hb)) h2

/-- One graph convolution: the adjacency block times the messages (a stacked product into zero), divided by the
    spread normalisation constant, the maximum with the spread zero word. -/
def kConv (hlt : FTy.bits .bf16 < FTy.bits .f32)
    (wf : DotDims.WF (⟨3, ![a, n, n]⟩ : Shape) (⟨3, ![a, n, d]⟩ : Shape) (⟨3, ![a, n, d]⟩ : Shape) [2] [1] [1] [2] [0] [0])
    (h1 : (⟨3, ![a, n, d]⟩ : Shape).ShapeCasts ⟨2, ![m, d]⟩) (h2 : (⟨2, ![m, d]⟩ : Shape).ShapeCasts ⟨3, ![a, n, d]⟩)
    (hv : (⟨1, ![d]⟩ : Shape).ShapeCasts ⟨2, ![1, d]⟩) (hb : (⟨2, ![1, d]⟩ : Shape).Broadcasts ⟨2, ![m, d]⟩)
    (h : FVec F ⟨3, ![a, n, d]⟩ .f32) (w : FVec F ⟨2, ![d, d]⟩ .f32) (β : FVec F ⟨1, ![d]⟩ .f32)
    (A : FVec F ⟨3, ![a, n, n]⟩ .bf16) : FVec F ⟨3, ![a, n, d]⟩ .f32 :=
  maximumf
    (divf
      (matmul (stackedDims wf) none A (truncf .bf16 (kMsg hlt h1 h2 hv hb h w β) hlt)
        (constant ⟨3, ![a, n, d]⟩ .f32 0x00000000#32))
      (broadcast ⟨3, ![a, n, d]⟩ (Scalar.ofBits .f32 0x3F800000#32)))
    (broadcast ⟨3, ![a, n, d]⟩ (Scalar.ofBits .f32 0x00000000#32))

/-- The read-out: messages with the projection weights, times the mask column spread over the features. -/
def kReadout (hlt : FTy.bits .bf16 < FTy.bits .f32) (h1 : (⟨3, ![a, n, d]⟩ : Shape).ShapeCasts ⟨2, ![m, d]⟩)
    (h2 : (⟨2, ![m, e]⟩ : Shape).ShapeCasts ⟨3, ![a, n, e]⟩) (hv : (⟨1, ![e]⟩ : Shape).ShapeCasts ⟨2, ![1, e]⟩)
    (hb : (⟨2, ![1, e]⟩ : Shape).Broadcasts ⟨2, ![m, e]⟩) (hk : (⟨3, ![a, n, 1]⟩ : Shape).Broadcasts ⟨3, ![a, n, e]⟩)
    (h : FVec F ⟨3, ![a, n, d]⟩ .f32) (w : FVec F ⟨2, ![d, e]⟩ .f32) (β : FVec F ⟨1, ![e]⟩ .f32)
    (mask : FVec F ⟨3, ![a, n, 1]⟩ .f32) : FVec F ⟨3, ![a, n, e]⟩ .f32 :=
  mulf (kMsg hlt h1 h2 hv hb h w β) (broadcastTo ⟨3, ![a, n, e]⟩ mask hk)

end Defs

/-! ## Graph by graph, on the extended reals -/

section Reads

variable {a n f d e m : ℕ}

theorem kEmbed_graph (hmn : m = a * n) (hlt : FTy.bits .bf16 < FTy.bits .f32)
    (h1 : (⟨3, ![a, n, f]⟩ : Shape).ShapeCasts ⟨2, ![m, f]⟩) (h2 : (⟨2, ![m, d]⟩ : Shape).ShapeCasts ⟨3, ![a, n, d]⟩)
    (x : FVec Ideal ⟨3, ![a, n, f]⟩ .f32) (we : FVec Ideal ⟨2, ![f, d]⟩ .f32) (p : Fin a) :
    graph p (kEmbed hlt h1 h2 x we) = matMul (graph p x) (mat we) := by
  subst hmn
  funext r c
  unfold graph kEmbed matMul mat
  refine (Rank3Layout.shapeCast_md_abd_apply _ h2 p r c ⟨p.val * n + r.val, flat_lt p r⟩ rfl).trans ?_
  refine (PlainMatmul.plain_apply _ _ ⟨p.val * n + r.val, flat_lt p r⟩ c).trans ?_
  refine Finset.sum_congr rfl fun k _ => ?_
  exact congrArg (· * we (ix2 k c))
    (Rank3Layout.shapeCast_abn_mn_apply _ h1 p r k ⟨p.val * n + r.val, flat_lt p r⟩ rfl)

theorem kMsg_graph (hmn : m = a * n) (hlt : FTy.bits .bf16 < FTy.bits .f32)
    (h1 : (⟨3, ![a, n, d]⟩ : Shape).ShapeCasts ⟨2, ![m, d]⟩) (h2 : (⟨2, ![m, e]⟩ : Shape).ShapeCasts ⟨3, ![a, n, e]⟩)
    (hv : (⟨1, ![e]⟩ : Shape).ShapeCasts ⟨2, ![1, e]⟩) (hb : (⟨2, ![1, e]⟩ : Shape).Broadcasts ⟨2, ![m, e]⟩)
    (h : FVec Ideal ⟨3, ![a, n, d]⟩ .f32) (w : FVec Ideal ⟨2, ![d, e]⟩ .f32) (β : FVec Ideal ⟨1, ![e]⟩ .f32) (p : Fin a) :
    graph p (kMsg hlt h1 h2 hv hb h w β) = fun r c => matMul (graph p h) (mat w) r c + vec β c := by
  subst hmn
  funext r c
  unfold graph kMsg matMul mat vec
  refine (Rank3Layout.shapeCast_md_abd_apply _ h2 p r c ⟨p.val * n + r.val, flat_lt p r⟩ rfl).trans ?_
  refine congrArg₂ (· + ·) ?_ (LeadingAxisLayout.rows_apply β hv hb ⟨p.val * n + r.val, flat_lt p r⟩ c)
  refine (PlainMatmul.plain_apply _ _ ⟨p.val * n + r.val, flat_lt p r⟩ c).trans ?_
  refine Finset.sum_congr rfl fun k _ => ?_
  exact congrArg (· * w (ix2 k c))
    (Rank3Layout.shapeCast_abn_mn_apply _ h1 p r k ⟨p.val * n + r.val, flat_lt p r⟩ rfl)

theorem kConv_graph (hmn : m = a * n) (hlt : FTy.bits .bf16 < FTy.bits .f32)
    (wf : DotDims.WF (⟨3, ![a, n, n]⟩ : Shape) (⟨3, ![a, n, d]⟩ : Shape) (⟨3, ![a, n, d]⟩ : Shape) [2] [1] [1] [2] [0] [0])
    (h1 : (⟨3, ![a, n, d]⟩ : Shape).ShapeCasts ⟨2, ![m, d]⟩) (h2 : (⟨2, ![m, d]⟩ : Shape).ShapeCasts ⟨3, ![a, n, d]⟩)
    (hv : (⟨1, ![d]⟩ : Shape).ShapeCasts ⟨2, ![1, d]⟩) (hb : (⟨2, ![1, d]⟩ : Shape).Broadcasts ⟨2, ![m, d]⟩)
    (h : FVec Ideal ⟨3, ![a, n, d]⟩ .f32) (w : FVec Ideal ⟨2, ![d, d]⟩ .f32) (β : FVec Ideal ⟨1, ![d]⟩ .f32)
    (A : FVec Ideal ⟨3, ![a, n, n]⟩ .bf16) (p : Fin a) :
    graph p (kConv hlt wf h1 h2 hv hb h w β A)
      = conv (Ideal.ofBits .f32 0x3F800000#32) (Ideal.ofBits .f32 0x00000000#32) (graph p A) (mat w) (vec β) (graph p h) := by
  funext r c
  have hmsg := kMsg_graph hmn hlt h1 h2 hv hb h w β p
  unfold graph kConv conv
  refine congrArg (fun z => max (Ideal.div z (Ideal.ofBits .f32 0x3F800000#32)) (Ideal.ofBits .f32 0x00000000#32)) ?_
  refine (stacked_matmul_apply wf none A _ p r c).trans ?_
  refine Finset.sum_congr rfl fun k _ => ?_
  exact congrArg (A (ix3 p r k) * ·) (congrFun (congrFun hmsg k) c)

theorem kReadout_graph (hmn : m = a * n) (hlt : FTy.bits .bf16 < FTy.bits .f32)
    (h1 : (⟨3, ![a, n, d]⟩ : Shape).ShapeCasts ⟨2, ![m, d]⟩) (h2 : (⟨2, ![m, e]⟩ : Shape).ShapeCasts ⟨3, ![a, n, e]⟩)
    (hv : (⟨1, ![e]⟩ : Shape).ShapeCasts ⟨2, ![1, e]⟩) (hb : (⟨2, ![1, e]⟩ : Shape).Broadcasts ⟨2, ![m, e]⟩)
    (hk : (⟨3, ![a, n, 1]⟩ : Shape).Broadcasts ⟨3, ![a, n, e]⟩)
    (h : FVec Ideal ⟨3, ![a, n, d]⟩ .f32) (w : FVec Ideal ⟨2, ![d, e]⟩ .f32) (β : FVec Ideal ⟨1, ![e]⟩ .f32)
    (mask : FVec Ideal ⟨3, ![a, n, 1]⟩ .f32) (p : Fin a) :
    graph p (kReadout hlt h1 h2 hv hb hk h w β mask) = readout (mat w) (vec β) (col p mask) (graph p h) := by
  funext r c
  have hmsg := kMsg_graph hmn hlt h1 h2 hv hb h w β p
  unfold readout col
  exact congrArg₂ (· * ·) (congrFun (congrFun hmsg r) c) (Rank3Layout.broadcastTo_ab1_abn_apply mask hk p r c)

end Reads

end Cert.KernelLayers

end
-- ==== Proof.LibSlab.lean ====
/-
  General lemmas about ONE slab of a stacked array, as a kernel reads it: a load of the `[1, a, b]` (or `[1, n]`) slab at
  leading offset `l` out of a `[L, a, b]` (or `[L, n]`) buffer's contents, cast to `[a, b]` (or `[n]`), reads at `(k, g)`
  (at `k`) the contents at `(l, k, g)` (at `(l, k)`). At any extents and for any element type.
-/
import Idealize.ShloMosaic.Lib.Pipeline.Value
import Idealize.ShloMosaic.Lib.ValueIdx
import Idealize.ShloMosaic.Lib.ValueLayout

namespace Cert.Slab

open Idealize.ShloMosaic Idealize.ShloMosaic.ValueIdx

variable {Val : EltTy → Type} {e : EltTy}

/-- Slab `l` of `[L, a, b]`, as a matrix. -/
theorem slab3_apply {L a b : ℕ} (x : (⟨3, ![L, a, b]⟩ : Shape).Idx → Val e) (l : ℕ) (hl : l < L)
    (inb : ∀ ax, (![l, 0, 0] : Fin 3 → ℕ) ax + (![1, a, b] : Fin 3 → ℕ) ax ≤ (⟨3, ![L, a, b]⟩ : Shape).size ax)
    (h : (⟨3, ![1, a, b]⟩ : Shape).ShapeCasts ⟨2, ![a, b]⟩) (k : Fin a) (g : Fin b) :
    shapeCast ⟨2, ![a, b]⟩ (View.ld x (Rect.unit (s := ⟨3, ![L, a, b]⟩) ![l, 0, 0] ![1, a, b] inb)) h (ix2 k g)
      = x (ix3 ⟨l, hl⟩ k g) := by
  refine (shapeCast_1ab_ab_apply _ h k g).trans ?_
  show x ((Rect.unit (s := ⟨3, ![L, a, b]⟩) ![l, 0, 0] ![1, a, b] inb).idx (ix3 (0 : Fin 1) k g)) = _
  refine congrArg x (funext fun ax => Fin.ext ?_)
  match ax with
  | ⟨0, _⟩ => show l + 1 * 0 = l; omega
  | ⟨1, _⟩ => show 0 + 1 * k.val = k.val; omega
  | ⟨2, _⟩ => show 0 + 1 * g.val = g.val; omega

/-- Row `l` of `[L, n]`, as a vector. -/
theorem slab2_apply {L n : ℕ} (x : (⟨2, ![L, n]⟩ : Shape).Idx → Val e) (l : ℕ) (hl : l < L)
    (inb : ∀ ax, (![l, 0] : Fin 2 → ℕ) ax + (![1, n] : Fin 2 → ℕ) ax ≤ (⟨2, ![L, n]⟩ : Shape).size ax)
    (h : (⟨2, ![1, n]⟩ : Shape).ShapeCasts ⟨1, ![n]⟩) (k : Fin n) :
    shapeCast ⟨1, ![n]⟩ (View.ld x (Rect.unit (s := ⟨2, ![L, n]⟩) ![l, 0] ![1, n] inb)) h (ix1 k)
      = x (ix2 ⟨l, hl⟩ k) := by
  refine (shapeCast_1a_a_apply _ h k).trans ?_
  show x ((Rect.unit (s := ⟨2, ![L, n]⟩) ![l, 0] ![1, n] inb).idx (ix2 (0 : Fin 1) k)) = _
  refine congrArg x (funext fun ax => Fin.ext ?_)
  match ax with
  | ⟨0, _⟩ => show l + 1 * 0 = l; omega
  | ⟨1, _⟩ => show 0 + 1 * k.val = k.val; omega

end Cert.Slab
-- ==== Proof.BlockValue.lean ====
/-
  What the kernel body leaves in its output block, as a function of its input blocks.

  The body stages the adjacency block once in a scratch buffer (narrowed in format: the identity on the extended
  reals) and reads it back before each convolution; it reads the three weight slabs and bias rows out of their stacks;
  everything else is arithmetic on whole blocks. So the one covering store of the output block holds `blockOut`: the
  read-out of three convolutions of the embedding, each over the staged adjacency block. Read graph by graph on the
  extended reals (a block holds two graphs), that is the network `Gcn.gcn` of the graph's rows of the input blocks.
-/
import proofs.«125081_j28114855919656_2_alg».proof.Proof.Gen.KernelIdeal.Frame
import proofs.«125081_j28114855919656_2_alg».proof.Proof.KernelLayers
import proofs.«125081_j28114855919656_2_alg».proof.Proof.LibSlab
import Idealize.ShloMosaic.Lib.Pipeline.Value

noncomputable section

namespace Cert.KernelIdeal.Block

open Cert.KernelIdeal Cert.KernelIdeal.Gen Idealize.ShloMosaic Idealize.ShloMosaic.TcCoe
open Idealize.ShloMosaic.Tactic Idealize.ShloMosaic.ValueIdx Idealize.SL.Sem Cert.Gcn Cert.KernelLayers

section AnyValues

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The output block as the body computes it from the input blocks: the read-out of the third convolution of the
    second of the first of the embedding, every convolution over the staged adjacency block, each layer's weight slab
    and bias row read out of their stacks. -/
def blockOut (x0 : Vec F S2x1024x64 .f32) (x1 : Vec F S2x1024x1024 .f32) (x2 : Vec F S2x1024x1 .f32) (x3 : Vec F S64x128 .f32) (x4 : Vec F S3x128x128 .f32) (x5 : Vec F S3x128 .f32) (x6 : Vec F S128x64 .f32) (x7 : Vec F S64 .f32) : FVec F S2x1024x64 .f32 :=
  k0_pay1
    (k0_pay4
      (k0_pay3 x0 x3 (View.ld x4 (Rect.unit (s := S3x128x128) ![0, 0, 0] S1x128x128.size inb_S3x128x128_S1x128x128_0_0_0))
        (View.ld x5 (Rect.unit (s := S3x128) ![0, 0] S1x128.size inb_S3x128_S1x128_0_0)) (k0_pay2 x1))
      (View.ld x4 (Rect.unit (s := S3x128x128) ![1, 0, 0] S1x128x128.size inb_S3x128x128_S1x128x128_1_0_0))
      (View.ld x5 (Rect.unit (s := S3x128) ![1, 0] S1x128.size inb_S3x128_S1x128_1_0)) (k0_pay2 x1)
      (View.ld x4 (Rect.unit (s := S3x128x128) ![2, 0, 0] S1x128x128.size inb_S3x128x128_S1x128x128_2_0_0))
      (View.ld x5 (Rect.unit (s := S3x128) ![2, 0] S1x128.size inb_S3x128_S1x128_2_0)) (k0_pay2 x1))
    x6 x7 x2

/-- The body's one covering store of the output block holds `blockOut` of the input blocks: the loads of whole staging
    buffers read their contents, the loads of the scratch buffer read what the first store put there. -/
theorem out_eq (c : Dev nD) (i : grid0.Coords) (arg1 : Memref sig .tc .vmem S2x1024x64 .f32) (harg1 : arg1.IsWhole) (arg2 : Memref sig .tc .vmem S2x1024x1024 .f32) (harg2 : arg2.IsWhole) (arg3 : Memref sig .tc .vmem S2x1024x1 .f32) (harg3 : arg3.IsWhole) (arg4 : Memref sig .tc .vmem S64x128 .f32) (harg4 : arg4.IsWhole) (arg5 : Memref sig .tc .vmem S3x128x128 .f32) (harg5 : arg5.IsWhole) (arg6 : Memref sig .tc .vmem S3x128 .f32) (harg6 : arg6.IsWhole) (arg7 : Memref sig .tc .vmem S128x64 .f32) (harg7 : arg7.IsWhole) (arg8 : Memref sig .tc .vmem S64 .f32) (harg8 : arg8.IsWhole) (arg9 : Memref sig .tc .vmem S2x1024x64 .f32) (harg9 : arg9.IsWhole) (arg10 : Memref sig .tc .vmem S2x1024x1024 .bf16) (harg10 : arg10.IsWhole)
    (x0 : Vec F S2x1024x64 .f32) (x1 : Vec F S2x1024x1024 .f32) (x2 : Vec F S2x1024x1 .f32) (x3 : Vec F S64x128 .f32) (x4 : Vec F S3x128x128 .f32) (x5 : Vec F S3x128 .f32) (x6 : Vec F S128x64 .f32) (x7 : Vec F S64 .f32) :
    out0_A_8 c i arg1 harg1 arg2 harg2 arg3 harg3 arg4 harg4 arg5 harg5 arg6 harg6 arg7 harg7 arg8 harg8 arg9 harg9 arg10 harg10 x0 x1 x2 x3 x4 x5 x6 x7 = blockOut x0 x1 x2 x3 x4 x5 x6 x7 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5 x6 x7)]
  unfold kernelRun0_A
  dsimp only
  sl_unfold_words
  rw [View.canon_unit_zero hz3]
  simp only [View.readAt_eq_ld, harg1.read_unread, harg2.read_unread, harg3.read_unread, harg4.read_unread,
    harg5.read_unread, harg6.read_unread, harg7.read_unread, harg8.read_unread,
    View.ld_unit_zero (S := S2x1024x64) hz3, View.ld_unit_zero (S := S2x1024x1024) hz3,
    View.ld_unit_zero (S := S2x1024x1) hz3, View.ld_unit_zero (S := S64x128) hz2, View.ld_unit_zero (S := S128x64) hz2,
    View.ld_unit_zero (S := S64) hz1, View.readCov_unit_zero (S := S2x1024x1024) _ hz3]
  rfl

/-- The first payload is the embedding followed by one convolution. -/
theorem pay3_eq (v5 : Vec F S2x1024x64 .f32) (v8 : Vec F S64x128 .f32) (v12 : Vec F S1x128x128 .f32)
    (v15 : Vec F S1x128 .f32) (v25 : Vec F S2x1024x1024 .bf16) :
    k0_pay3 v5 v8 v12 v15 v25
      = kConv (m := 2048) bitsLt_bf16_f32 dot_S2x1024x1024_S2x1024x128_S2x1024x128_2_1_1_2_0_0_wf shapeCasts_S2x1024x128_S2048x128 shapeCasts_S2048x128_S2x1024x128 shapeCasts_S128_S1x128 broadcasts_S1x128_S2048x128
          (kEmbed (m := 2048) bitsLt_bf16_f32 shapeCasts_S2x1024x64_S2048x64 shapeCasts_S2048x128_S2x1024x128 v5 v8)
          (shapeCast S128x128 v12 shapeCasts_S1x128x128_S128x128) (shapeCast S128 v15 shapeCasts_S1x128_S128) v25 := rfl

/-- The second payload is two more convolutions. -/
theorem pay4_eq (v30 : FVec F S2x1024x128 .f32) (v31 : Vec F S1x128x128 .f32) (v34 : Vec F S1x128 .f32)
    (v44 : Vec F S2x1024x1024 .bf16) (v50 : Vec F S1x128x128 .f32) (v53 : Vec F S1x128 .f32)
    (v63 : Vec F S2x1024x1024 .bf16) :
    k0_pay4 v30 v31 v34 v44 v50 v53 v63
      = kConv (m := 2048) bitsLt_bf16_f32 dot_S2x1024x1024_S2x1024x128_S2x1024x128_2_1_1_2_0_0_wf shapeCasts_S2x1024x128_S2048x128 shapeCasts_S2048x128_S2x1024x128 shapeCasts_S128_S1x128 broadcasts_S1x128_S2048x128
          (kConv (m := 2048) bitsLt_bf16_f32 dot_S2x1024x1024_S2x1024x128_S2x1024x128_2_1_1_2_0_0_wf shapeCasts_S2x1024x128_S2048x128 shapeCasts_S2048x128_S2x1024x128 shapeCasts_S128_S1x128 broadcasts_S1x128_S2048x128 v30
            (shapeCast S128x128 v31 shapeCasts_S1x128x128_S128x128) (shapeCast S128 v34 shapeCasts_S1x128_S128) v44)
          (shapeCast S128x128 v50 shapeCasts_S1x128x128_S128x128) (shapeCast S128 v53 shapeCasts_S1x128_S128) v63 := rfl

/-- The stored payload is the read-out. -/
theorem pay1_eq (v68 : FVec F S2x1024x128 .f32) (v69 : Vec F S128x64 .f32) (v71 : Vec F S64 .f32)
    (v79 : Vec F S2x1024x1 .f32) :
    k0_pay1 v68 v69 v71 v79
      = kReadout (m := 2048) bitsLt_bf16_f32 shapeCasts_S2x1024x128_S2048x128 shapeCasts_S2048x64_S2x1024x64
          shapeCasts_S64_S1x64 broadcasts_S1x64_S2048x64 broadcasts_S2x1024x1_S2x1024x64 v68 v69 v71 v79 := rfl

end AnyValues

/-! ## On the extended reals, graph by graph -/

/-- The staged adjacency block is the adjacency block: a narrowing and a cast to its own shape. -/
theorem staged_graph (x1 : Vec Ideal S2x1024x1024 .f32) (p : Fin 2) : graph p (k0_pay2 x1) = graph p x1 := by
  have h : k0_pay2 (F := Ideal) x1
      = shapeCast S2x1024x1024 (truncf (F := Ideal) .bf16 x1 bitsLt_bf16_f32) shapeCasts_S2x1024x1024_S2x1024x1024 := rfl
  rw [h, shapeCast_self]
  rfl

/-- Slab `l` of the weight stack, loaded and cast to a matrix, by coordinates. -/
theorem slab_eq (x4 : Vec Ideal S3x128x128 .f32) (l : ℕ) (hl : l < 3)
    (inb : ∀ ax, (![l, 0, 0] : Fin 3 → ℕ) ax + (![1, 128, 128] : Fin 3 → ℕ) ax ≤ S3x128x128.size ax) :
    mat (shapeCast S128x128 (View.ld x4 (Rect.unit (s := S3x128x128) ![l, 0, 0] S1x128x128.size inb))
      shapeCasts_S1x128x128_S128x128) = slab (⟨l, hl⟩ : Fin 3) x4 :=
  funext fun j => funext fun k =>
    Slab.slab3_apply (Val := Elt Ideal) (e := .f32) x4 l hl inb shapeCasts_S1x128x128_S128x128 j k

/-- Row `l` of the bias stack, loaded and cast to a vector, by coordinates. -/
theorem row_eq (x5 : Vec Ideal S3x128 .f32) (l : ℕ) (hl : l < 3)
    (inb : ∀ ax, (![l, 0] : Fin 2 → ℕ) ax + (![1, 128] : Fin 2 → ℕ) ax ≤ S3x128.size ax) :
    vec (shapeCast S128 (View.ld x5 (Rect.unit (s := S3x128) ![l, 0] S1x128.size inb)) shapeCasts_S1x128_S128)
      = row (⟨l, hl⟩ : Fin 3) x5 :=
  funext fun k => Slab.slab2_apply (Val := Elt Ideal) (e := .f32) x5 l hl inb shapeCasts_S1x128_S128 k

/-- THE BLOCK, graph by graph: graph `p` of the output block is the network of graph `p`'s rows of the feature,
    adjacency and mask blocks and of the weights. -/
theorem blockOut_graph (x0 : Vec Ideal S2x1024x64 .f32) (x1 : Vec Ideal S2x1024x1024 .f32) (x2 : Vec Ideal S2x1024x1 .f32) (x3 : Vec Ideal S64x128 .f32) (x4 : Vec Ideal S3x128x128 .f32) (x5 : Vec Ideal S3x128 .f32) (x6 : Vec Ideal S128x64 .f32) (x7 : Vec Ideal S64 .f32) (p : Fin 2) :
    graph p (blockOut x0 x1 x2 x3 x4 x5 x6 x7)
      = gcn (Ideal.ofBits .f32 0x3F800000#32) (Ideal.ofBits .f32 0x00000000#32) (graph p x0) (graph p x1) (col p x2)
          (mat x3) (slab (⟨0, by decide⟩ : Fin 3) x4) (row (⟨0, by decide⟩ : Fin 3) x5)
          (slab (⟨1, by decide⟩ : Fin 3) x4) (row (⟨1, by decide⟩ : Fin 3) x5)
          (slab (⟨2, by decide⟩ : Fin 3) x4) (row (⟨2, by decide⟩ : Fin 3) x5) (mat x6) (vec x7) := by
  unfold blockOut gcn
  rw [pay1_eq, pay4_eq, pay3_eq]
  rw [kReadout_graph (m := 2048) rfl, kConv_graph (m := 2048) rfl, kConv_graph (m := 2048) rfl,
    kConv_graph (m := 2048) rfl, kEmbed_graph (m := 2048) rfl]
  rw [staged_graph, slab_eq x4 0 (by decide), slab_eq x4 1 (by decide), slab_eq x4 2 (by decide),
    row_eq x5 0 (by decide), row_eq x5 1 (by decide), row_eq x5 2 (by decide)]

end Cert.KernelIdeal.Block

end
-- ==== Proof.KernelValue.lean ====
/-
  From blocks to the array: what the kernel's result array holds after the run.

  The grid has sixteen points; point `t` stages graphs `2t` and `2t + 1` of the feature, adjacency and mask arrays, the
  whole weight arrays, and writes back graphs `2t` and `2t + 1` of the result. So graph `p` of an input block at point `t`
  is graph `2t + p` of its array, the block the body leaves is block `t` of the network's result array `Gcn.stackOut` of the
  arguments (`flushed_eq`), the sixteen blocks cover the array (graph `b` is written at point `b / 2`), and the array ends
  holding `Gcn.stackOut` (`final`, `run`).
-/
import proofs.«125081_j28114855919656_2_alg».proof.Proof.Gen.KernelIdeal.Value
import proofs.«125081_j28114855919656_2_alg».proof.Proof.BlockValue

noncomputable section

namespace Cert.KernelIdeal.Whole

open Cert.KernelIdeal Cert.KernelIdeal.Gen Idealize.ShloMosaic Idealize.ShloMosaic.TcCoe Idealize.ShloMosaic.ValueIdx
open Idealize.SL.Sem Cert.Gcn Cert.KernelIdeal.Block
open Idealize.ShloMosaic.Pipeline (Dat)

variable (m : (ℓ : Loc nD τ sig) → Buf (Elt Ideal) ℓ) (ρ : Dev nD → PrngReg)

/-! ## The index maps, decided over the sixteen points -/

theorem idx_moving : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_8.index t (0 : Fin 3) = t.val ∧ win0_8.index t (1 : Fin 3) = 0 ∧ win0_8.index t (2 : Fin 3) = 0) :=
  (by decide +kernel : ∀ t : Fin grid0.N, _)

theorem idx_fixed : ∀ t : Fin cfg0.N,
    (win0_3.index t (0 : Fin 2) = 0 ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 2) = 0 ∧ win0_6.index t (1 : Fin 2) = 0)
    ∧ win0_7.index t (0 : Fin 1) = 0 :=
  (by decide +kernel : ∀ t : Fin grid0.N, _)

/-! ## The input blocks, read off their arrays -/

/-- Graph `p` of the feature block at point `t` is graph `2t + p` of the feature array. -/
theorem features_graph (c : Dev nD) (t : Fin cfg0.N) (p : Fin 2) (q : Fin 32) (hq : q.val = 2 * t.val + p.val) :
    graph p (iblk m c 0 t : Vec Ideal S2x1024x64 .f32)
      = graph q (m ((c : Thread nD τ).loc main_arg0) : S32x1024x64.Idx → EReal) := by
  obtain ⟨⟨e0, e1, e2⟩, -⟩ := idx_moving t
  funext r k
  show V m c main_arg0 (((cfg0.win 0).blk t).view.emb (ix3 p r k)) = V m c main_arg0 (ix3 q r k)
  refine congrArg _ (funext fun a => Fin.ext ?_)
  match a with
  | ⟨0, _⟩ => show win0_0.index t (0 : Fin 3) * 2 + 1 * p.val = q.val; omega
  | ⟨1, _⟩ => show win0_0.index t (1 : Fin 3) * 1024 + 1 * r.val = r.val; omega
  | ⟨2, _⟩ => show win0_0.index t (2 : Fin 3) * 64 + 1 * k.val = k.val; omega

/-- Graph `p` of the adjacency block at point `t` is graph `2t + p` of the adjacency array. -/
theorem adjacency_graph (c : Dev nD) (t : Fin cfg0.N) (p : Fin 2) (q : Fin 32) (hq : q.val = 2 * t.val + p.val) :
    graph p (iblk m c 1 t : Vec Ideal S2x1024x1024 .f32)
      = graph q (m ((c : Thread nD τ).loc main_arg1) : S32x1024x1024.Idx → EReal) := by
  obtain ⟨-, ⟨e0, e1, e2⟩, -⟩ := idx_moving t
  funext r k
  show V m c main_arg1 (((cfg0.win 1).blk t).view.emb (ix3 p r k)) = V m c main_arg1 (ix3 q r k)
  refine congrArg _ (funext fun a => Fin.ext ?_)
  match a with
  | ⟨0, _⟩ => show win0_1.index t (0 : Fin 3) * 2 + 1 * p.val = q.val; omega
  | ⟨1, _⟩ => show win0_1.index t (1 : Fin 3) * 1024 + 1 * r.val = r.val; omega
  | ⟨2, _⟩ => show win0_1.index t (2 : Fin 3) * 1024 + 1 * k.val = k.val; omega

/-- Graph `p`'s mask column at point `t` is graph `2t + p`'s column of the mask array. -/
theorem mask_col (c : Dev nD) (t : Fin cfg0.N) (p : Fin 2) (q : Fin 32) (hq : q.val = 2 * t.val + p.val) :
    col p (iblk m c 2 t : Vec Ideal S2x1024x1 .f32)
      = col q (m ((c : Thread nD τ).loc main_arg2) : S32x1024x1.Idx → EReal) := by
  obtain ⟨-, -, ⟨e0, e1, e2⟩, -⟩ := idx_moving t
  funext r
  show V m c main_arg2 (((cfg0.win 2).blk t).view.emb (ix3 p r (0 : Fin 1))) = V m c main_arg2 (ix3 q r (0 : Fin 1))
  refine congrArg _ (funext fun a => Fin.ext ?_)
  match a with
  | ⟨0, _⟩ => show win0_2.index t (0 : Fin 3) * 2 + 1 * p.val = q.val; omega
  | ⟨1, _⟩ => show win0_2.index t (1 : Fin 3) * 1024 + 1 * r.val = r.val; omega
  | ⟨2, _⟩ => show win0_2.index t (2 : Fin 3) * 1 + 1 * 0 = 0; omega

/-- The weight windows stage their whole arrays at every point. -/
theorem embed_weights (c : Dev nD) (t : Fin cfg0.N) :
    (iblk m c 3 t : Vec Ideal S64x128 .f32) = (m ((c : Thread nD τ).loc main_arg3) : S64x128.Idx → EReal) := by
  obtain ⟨⟨e0, e1⟩, -⟩ := idx_fixed t
  funext y
  show V m c main_arg3 (((cfg0.win 3).blk t).view.emb y) = V m c main_arg3 y
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 128 + 1 * (y 1).val = (y 1).val; omega

theorem layer_weights (c : Dev nD) (t : Fin cfg0.N) :
    (iblk m c 4 t : Vec Ideal S3x128x128 .f32) = (m ((c : Thread nD τ).loc main_arg4) : S3x128x128.Idx → EReal) := by
  obtain ⟨-, ⟨e0, e1, e2⟩, -⟩ := idx_fixed t
  funext y
  show V m c main_arg4 (((cfg0.win 4).blk t).view.emb y) = V m c main_arg4 y
  refine congrArg _ (funext fun a => Fin.ext ?_)
  match a with
  | ⟨0, _⟩ => show win0_4.index t (0 : Fin 3) * 3 + 1 * (y 0).val = (y 0).val; omega
  | ⟨1, _⟩ => show win0_4.index t (1 : Fin 3) * 128 + 1 * (y 1).val = (y 1).val; omega
  | ⟨2, _⟩ => show win0_4.index t (2 : Fin 3) * 128 + 1 * (y 2).val = (y 2).val; omega

theorem layer_biases (c : Dev nD) (t : Fin cfg0.N) :
    (iblk m c 5 t : Vec Ideal S3x128 .f32) = (m ((c : Thread nD τ).loc main_arg5) : S3x128.Idx → EReal) := by
  obtain ⟨-, -, ⟨e0, e1⟩, -⟩ := idx_fixed t
  funext y
  show V m c main_arg5 (((cfg0.win 5).blk t).view.emb y) = V m c main_arg5 y
  refine congrArg _ (funext fun a => Fin.ext ?_)
  match a with
  | ⟨0, _⟩ => show win0_5.index t (0 : Fin 2) * 3 + 1 * (y 0).val = (y 0).val; omega
  | ⟨1, _⟩ => show win0_5.index t (1 : Fin 2) * 128 + 1 * (y 1).val = (y 1).val; omega

theorem readout_weights (c : Dev nD) (t : Fin cfg0.N) :
    (iblk m c 6 t : Vec Ideal S128x64 .f32) = (m ((c : Thread nD τ).loc main_arg6) : S128x64.Idx → EReal) := by
  obtain ⟨-, -, -, ⟨e0, e1⟩, -⟩ := idx_fixed t
  funext y
  show V m c main_arg6 (((cfg0.win 6).blk t).view.emb y) = V m c main_arg6 y
  refine congrArg _ (funext fun a => Fin.ext ?_)
  match a with
  | ⟨0, _⟩ => show win0_6.index t (0 : Fin 2) * 128 + 1 * (y 0).val = (y 0).val; omega
  | ⟨1, _⟩ => show win0_6.index t (1 : Fin 2) * 64 + 1 * (y 1).val = (y 1).val; omega

theorem readout_bias (c : Dev nD) (t : Fin cfg0.N) :
    (iblk m c 7 t : Vec Ideal S64 .f32) = (m ((c : Thread nD τ).loc main_arg7) : S64.Idx → EReal) := by
  obtain ⟨-, -, -, -, e0⟩ := idx_fixed t
  funext y
  show V m c main_arg7 (((cfg0.win 7).blk t).view.emb y) = V m c main_arg7 y
  refine congrArg _ (funext fun a => Fin.ext ?_)
  match a with
  | ⟨0, _⟩ => show win0_7.index t (0 : Fin 1) * 64 + 1 * (y 0).val = (y 0).val; omega

/-! ## One point's block is a block of the network's result array -/

/-- The array the run leaves: the network on every graph of the argument arrays. -/
abbrev result (c : Dev nD) : S32x1024x64.Idx → EReal :=
  stackOut (Ideal.ofBits .f32 0x3F800000#32) (Ideal.ofBits .f32 0x00000000#32)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- For blocks that are graphs `2t`, `2t + 1` of their arrays and whole weight arrays, graph `p` of the body's output
    block is graph `2t + p` of the network's result array. -/
theorem block_point (X0 : S32x1024x64.Idx → EReal) (X1 : S32x1024x1024.Idx → EReal) (X2 : S32x1024x1.Idx → EReal)
    (X3 : S64x128.Idx → EReal) (X4 : S3x128x128.Idx → EReal) (X5 : S3x128.Idx → EReal) (X6 : S128x64.Idx → EReal)
    (X7 : S64.Idx → EReal) (x0 : Vec Ideal S2x1024x64 .f32) (x1 : Vec Ideal S2x1024x1024 .f32) (x2 : Vec Ideal S2x1024x1 .f32) (x3 : Vec Ideal S64x128 .f32) (x4 : Vec Ideal S3x128x128 .f32) (x5 : Vec Ideal S3x128 .f32) (x6 : Vec Ideal S128x64 .f32) (x7 : Vec Ideal S64 .f32)
    (p : Fin 2) (q : Fin 32) (h0 : graph p x0 = graph q X0) (h1 : graph p x1 = graph q X1) (h2 : col p x2 = col q X2)
    (h3 : x3 = X3) (h4 : x4 = X4) (h5 : x5 = X5) (h6 : x6 = X6) (h7 : x7 = X7) (r : Fin 1024) (k : Fin 64) :
    blockOut x0 x1 x2 x3 x4 x5 x6 x7 (ix3 p r k)
      = stackOut (Ideal.ofBits .f32 0x3F800000#32) (Ideal.ofBits .f32 0x00000000#32) X0 X1 X2 X3 X4 X5 X6 X7 (ix3 q r k) := by
  subst h3 h4 h5 h6 h7
  rw [stackOut_apply, ← h0, ← h1, ← h2]
  exact congrFun (congrFun (blockOut_graph x0 x1 x2 x3 x4 x5 x6 x7 p) r) k

/-- WHAT POINT `t` WRITES BACK is block `t` of the network's result array. -/
theorem flushed_eq (c : Dev nD) (t : Fin cfg0.N) :
    (dats m 0 c).flushed 8 t = ((cfg0.win 8).blk t).view.read (Elt Ideal) (result m c) := by
  have hN : grid0.N = 16 := N_0
  have ht : t.val < 16 := hN ▸ t.isLt
  obtain ⟨-, -, -, ⟨e0, e1, e2⟩⟩ := idx_moving t
  rw [Value.flushed8_A, out_eq]
  funext y
  obtain ⟨p, r, k, rfl⟩ : ∃ (p : Fin 2) (r : Fin 1024) (k : Fin 64), y = ix3 p r k := ⟨y 0, y 1, y 2, eq_ix3 y⟩
  have hp : p.val < 2 := p.isLt
  show blockOut (iblk m c 0 t) (iblk m c 1 t) (iblk m c 2 t) (iblk m c 3 t) (iblk m c 4 t) (iblk m c 5 t) (iblk m c 6 t) (iblk m c 7 t) (ix3 p r k)
    = result m c (((cfg0.win 8).blk t).view.emb (ix3 p r k))
  have hq : ((cfg0.win 8).blk t).view.emb (ix3 p r k) = ix3 (⟨2 * t.val + p.val, by omega⟩ : Fin 32) r k :=
    funext fun a => Fin.ext (by
      match a with
      | ⟨0, _⟩ => show win0_8.index t (0 : Fin 3) * 2 + 1 * p.val = 2 * t.val + p.val; omega
      | ⟨1, _⟩ => show win0_8.index t (1 : Fin 3) * 1024 + 1 * r.val = r.val; omega
      | ⟨2, _⟩ => show win0_8.index t (2 : Fin 3) * 64 + 1 * k.val = k.val; omega)
  rw [hq]
  exact block_point _ _ _ _ _ _ _ _ _ _ _ _ _ _ _ _ p ⟨2 * t.val + p.val, by omega⟩
    (features_graph m c t p _ rfl) (adjacency_graph m c t p _ rfl) (mask_col m c t p _ rfl) (embed_weights m c t)
    (layer_weights m c t) (layer_biases m c t) (readout_weights m c t) (readout_bias m c t) r k

/-! ## The blocks cover the array -/

/-- An index of the result array is in point `t`'s block iff each coordinate is in the block's range on its axis. -/
theorem mem_blk (t : Fin cfg0.N) (i : S32x1024x64.Idx) :
    i ∈ ((cfg0.win 8).blk t).view.set ↔ ∀ a : Fin 3, win0_8.index t a * S2x1024x64.size a ≤ (i a).val
      ∧ (i a).val < win0_8.index t a * S2x1024x64.size a + S2x1024x64.size a := by
  show i ∈ ((View.whole main_v0).slice (win0_8.rect t)).set ↔ _
  rw [View.set_slice_whole, Rect.mem_set_unit]
  exact Iff.rfl

/-- Graph `b` of the result array is written back at point `b / 2`. -/
theorem cover (i : S32x1024x64.Idx) :
    ∃ t : Fin cfg0.N, (cfg0.win 8).flush t = true ∧ i ∈ ((cfg0.win 8).blk t).view.set := by
  have hN : grid0.N = 16 := N_0
  have hi0 : (i 0).val < 32 := (i 0).isLt
  have hi1 : (i 1).val < 1024 := (i 1).isLt
  have hi2 : (i 2).val < 64 := (i 2).isLt
  obtain ⟨t, ht⟩ : ∃ t : Fin cfg0.N, t.val = (i 0).val / 2 :=
    ⟨⟨(i 0).val / 2, by show (i 0).val / 2 < grid0.N; rw [hN]; omega⟩, rfl⟩
  obtain ⟨-, -, -, ⟨e0, e1, e2⟩⟩ := idx_moving t
  refine ⟨t, flush0_8 t, ?_⟩
  rw [mem_blk]
  intro a
  match a with
  | ⟨0, _⟩ =>
    show win0_8.index t (0 : Fin 3) * 2 ≤ (i 0).val ∧ (i 0).val < win0_8.index t (0 : Fin 3) * 2 + 2
    omega
  | ⟨1, _⟩ =>
    show win0_8.index t (1 : Fin 3) * 1024 ≤ (i 1).val ∧ (i 1).val < win0_8.index t (1 : Fin 3) * 1024 + 1024
    omega
  | ⟨2, _⟩ =>
    show win0_8.index t (2 : Fin 3) * 64 ≤ (i 2).val ∧ (i 2).val < win0_8.index t (2 : Fin 3) * 64 + 64
    omega

/-- THE ARRAY after the run: the network on every graph of the argument arrays. -/
theorem final (c : Dev nD) : (dats m 0 c).arrAt 8 cfg0.N = result m c :=
  (dats m 0 c).arrAt_eq_of_cover 8 (result m c) (fun t _ => flushed_eq m c t) cover

/-- The kernel's run: every weakly fair execution terminates with the result array at the network of the argument
    arrays, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final m c), (h c).2⟩) (Value.run_blocks m ρ)

end Cert.KernelIdeal.Whole

end
-- ==== Proof.LibHostLayout.lean ====
/-
  General lemmas about layout operations of a host program, read at coordinates, at any extents:
  a vector spread over the rows of a rank-3 array (`broadcast_in_dim` `[n] → [1, 1, n] → [a, b, n]`: entry `(r, s, k)` reads
  the vector at `k` — a bias added to every row of an einsum's result); a scalar spread over a vector; and ONE slab of a
  stacked array, sliced at leading offset `l` out of `[L, a, b]` (or `[L, n]`) and reshaped to `[a, b]` (or `[n]`).
-/
import Idealize.ShloMosaic.Lib.Pipeline.Value
import Idealize.ShloMosaic.Lib.ValueIdx
import Idealize.ShloMosaic.Lib.ValueLayout

namespace Cert.HostLayout

open Idealize.ShloMosaic Idealize.ShloMosaic.ValueIdx

variable {α : Type}

/-- A vector `[n]` laid along the last axis of `[1, 1, n]` and spread to `[a, b, n]` reads, at `(r, s, k)`, the vector at `k`. -/
theorem bias3_apply {a b n : ℕ} (v : (⟨1, ![n]⟩ : Shape).Idx → α)
    (h1 : (⟨1, ![n]⟩ : Shape).BroadcastsInDim ⟨3, ![1, 1, n]⟩ ![2])
    (h2 : (⟨3, ![1, 1, n]⟩ : Shape).BroadcastsInDim ⟨3, ![a, b, n]⟩ ![0, 1, 2]) (r : Fin a) (s : Fin b) (k : Fin n) :
    broadcastInDim ⟨3, ![a, b, n]⟩ ![0, 1, 2] h2 (broadcastInDim ⟨3, ![1, 1, n]⟩ ![2] h1 v) (ix3 r s k) = v (ix1 k) := by
  refine (broadcastInDim_apply _ h2 _ (ix3 r s k) (ix3 (0 : Fin 1) (0 : Fin 1) k) fun ax => ?_).trans
    (broadcastInDim_apply _ h1 v (ix3 (0 : Fin 1) (0 : Fin 1) k) (ix1 k) fun ax => ?_)
  · match ax with
    | ⟨0, _⟩ => show 0 = if (1 : ℕ) = 1 then 0 else r.val; rw [if_pos rfl]
    | ⟨1, _⟩ => show 0 = if (1 : ℕ) = 1 then 0 else s.val; rw [if_pos rfl]
    | ⟨2, _⟩ =>
      show k.val = if n = 1 then 0 else k.val
      split
      · have := k.isLt; omega
      · rfl
  · match ax with
    | ⟨0, _⟩ =>
      show k.val = if n = 1 then 0 else k.val
      split
      · have := k.isLt; omega
      · rfl

/-- A scalar (a rank-0 array) spread over any array reads its one entry everywhere. -/
theorem scalar_apply {t : Shape} (dims : Fin 0 → Fin t.rank) (v : (⟨0, ![]⟩ : Shape).Idx → α)
    (h : (⟨0, ![]⟩ : Shape).BroadcastsInDim t dims) (i : t.Idx) :
    broadcastInDim t dims h v i = v ix0 :=
  broadcastInDim_apply dims h v i ix0 fun ax => ax.elim0

/-- Slab `l` sliced out of `[L, a, b]` and reshaped to a matrix reads, at `(k, g)`, the array at `(l, k, g)`. -/
theorem slab3_apply {L a b : ℕ} (x : (⟨3, ![L, a, b]⟩ : Shape).Idx → α) (l : ℕ) (hl : l < L)
    (hs : (⟨3, ![L, a, b]⟩ : Shape).Slices ![l, 0, 0] ⟨3, ![1, a, b]⟩)
    (h : (⟨3, ![1, a, b]⟩ : Shape).ShapeCasts ⟨2, ![a, b]⟩) (k : Fin a) (g : Fin b) :
    shapeCast ⟨2, ![a, b]⟩ (extractStridedSlice ⟨3, ![1, a, b]⟩ ![l, 0, 0] x hs) h (ix2 k g) = x (ix3 ⟨l, hl⟩ k g) := by
  refine (shapeCast_1ab_ab_apply _ h k g).trans
    (extractStridedSlice_apply ![l, 0, 0] x hs (ix3 (0 : Fin 1) k g) (ix3 ⟨l, hl⟩ k g) fun ax => ?_)
  match ax with
  | ⟨0, _⟩ => show l = l + 0; rfl
  | ⟨1, _⟩ => show k.val = 0 + k.val; omega
  | ⟨2, _⟩ => show g.val = 0 + g.val; omega

/-- Row `l` sliced out of `[L, n]` and reshaped to a vector reads, at `k`, the array at `(l, k)`. -/
theorem slab2_apply {L n : ℕ} (x : (⟨2, ![L, n]⟩ : Shape).Idx → α) (l : ℕ) (hl : l < L)
    (hs : (⟨2, ![L, n]⟩ : Shape).Slices ![l, 0] ⟨2, ![1, n]⟩)
    (h : (⟨2, ![1, n]⟩ : Shape).ShapeCasts ⟨1, ![n]⟩) (k : Fin n) :
    shapeCast ⟨1, ![n]⟩ (extractStridedSlice ⟨2, ![1, n]⟩ ![l, 0] x hs) h (ix1 k) = x (ix2 ⟨l, hl⟩ k) := by
  refine (shapeCast_1a_a_apply _ h k).trans
    (extractStridedSlice_apply ![l, 0] x hs (ix2 (0 : Fin 1) k) (ix2 ⟨l, hl⟩ k) fun ax => ?_)
  match ax with
  | ⟨0, _⟩ => show l = l + 0; rfl
  | ⟨1, _⟩ => show k.val = 0 + k.val; omega

end Cert.HostLayout
-- ==== Proof.HostLayers.lean ====
/-
  The steps of the network as a host program computes them on the whole stack of `B` graphs, at any extents, and what
  each step holds graph by graph on the extended reals.

  The host program keeps the stack `[B, n, d]` as it is: a product with a weight matrix is a `dot_general` that keeps
  the two leading axes (`bnd,de->bne`), a bias vector is laid along the last axis and spread over the two leading ones,
  the aggregation is the stacked `dot_general` with the adjacency array, the constants are rank-0 arrays spread over the
  stack, and the mask column is spread over the features. Graph by graph these are `h · W + β` (`hMsg`), the graph
  convolution `Gcn.conv` (`hConv`) and the read-out `Gcn.readout` (`hReadout`).
-/
import proofs.«125081_j28114855919656_2_alg».proof.Proof.Spec
import proofs.«125081_j28114855919656_2_alg».proof.Proof.LibGraphDots
import proofs.«125081_j28114855919656_2_alg».proof.Proof.LibHostLayout

noncomputable section

namespace Cert.HostLayers

open Idealize.ShloMosaic Idealize.ShloMosaic.ValueIdx Cert.Gcn Cert.GraphDots

/-- A keep-dims column `[a, n, 1]` spread over `e` features reads, at `(p, r, c)`, the column at `(p, r, 0)`. -/
theorem column_spread_apply {α : Type} {a n e : ℕ} (v : (⟨3, ![a, n, 1]⟩ : Shape).Idx → α)
    (h : (⟨3, ![a, n, 1]⟩ : Shape).BroadcastsInDim ⟨3, ![a, n, e]⟩ ![0, 1, 2]) (p : Fin a) (r : Fin n) (c : Fin e) :
    broadcastInDim ⟨3, ![a, n, e]⟩ ![0, 1, 2] h v (ix3 p r c) = v (ix3 p r (0 : Fin 1)) := by
  refine broadcastInDim_apply _ h v (ix3 p r c) (ix3 p r (0 : Fin 1)) fun ax => ?_
  match ax with
  | ⟨0, _⟩ =>
    show p.val = if a = 1 then 0 else p.val
    split
    · have := p.isLt; omega
    · rfl
  | ⟨1, _⟩ =>
    show r.val = if n = 1 then 0 else r.val
    split
    · have := r.isLt; omega
    · rfl
  | ⟨2, _⟩ => show 0 = if (1 : ℕ) = 1 then 0 else c.val; rw [if_pos rfl]

section Defs

variable {F : FTy → Type} [FloatOps F] {B n d e : ℕ}

/-- The messages: the rows product with a weight matrix plus the bias vector spread over every node of every graph. -/
def hMsg (wf : DotDims.WF (⟨3, ![B, n, d]⟩ : Shape) (⟨2, ![d, e]⟩ : Shape) (⟨3, ![B, n, e]⟩ : Shape) [2] [0] [0, 1] [1] [] [])
    (hb1 : (⟨1, ![e]⟩ : Shape).BroadcastsInDim ⟨3, ![1, 1, e]⟩ ![2])
    (hb2 : (⟨3, ![1, 1, e]⟩ : Shape).BroadcastsInDim ⟨3, ![B, n, e]⟩ ![0, 1, 2])
    (h : FVec F ⟨3, ![B, n, d]⟩ .f32) (w : FVec F ⟨2, ![d, e]⟩ .f32) (β : FVec F ⟨1, ![e]⟩ .f32) :
    FVec F ⟨3, ![B, n, e]⟩ .f32 :=
  addf (Host.dotGeneral (rowsDims wf) none h w)
    (broadcastInDim ⟨3, ![B, n, e]⟩ ![0, 1, 2] hb2 (broadcastInDim ⟨3, ![1, 1, e]⟩ ![2] hb1 β))

/-- One graph convolution: the stacked product of the adjacency array with the messages, divided by the spread
    normalisation constant, the maximum with the spread zero. -/
def hConv (wfr : DotDims.WF (⟨3, ![B, n, d]⟩ : Shape) (⟨2, ![d, d]⟩ : Shape) (⟨3, ![B, n, d]⟩ : Shape) [2] [0] [0, 1] [1] [] [])
    (wfs : DotDims.WF (⟨3, ![B, n, n]⟩ : Shape) (⟨3, ![B, n, d]⟩ : Shape) (⟨3, ![B, n, d]⟩ : Shape) [2] [1] [1] [2] [0] [0])
    (hb1 : (⟨1, ![d]⟩ : Shape).BroadcastsInDim ⟨3, ![1, 1, d]⟩ ![2])
    (hb2 : (⟨3, ![1, 1, d]⟩ : Shape).BroadcastsInDim ⟨3, ![B, n, d]⟩ ![0, 1, 2])
    (hs : (⟨0, ![]⟩ : Shape).BroadcastsInDim ⟨3, ![B, n, d]⟩ ![])
    (A : FVec F ⟨3, ![B, n, n]⟩ .f32) (w : FVec F ⟨2, ![d, d]⟩ .f32) (β : FVec F ⟨1, ![d]⟩ .f32)
    (h : FVec F ⟨3, ![B, n, d]⟩ .f32) : FVec F ⟨3, ![B, n, d]⟩ .f32 :=
  maximumf
    (Host.divf (Host.dotGeneral (stackedDims wfs) none A (hMsg wfr hb1 hb2 h w β))
      (broadcastInDim ⟨3, ![B, n, d]⟩ ![] hs (constant ⟨0, ![]⟩ .f32 0x3F800000#32)))
    (broadcastInDim ⟨3, ![B, n, d]⟩ ![] hs (constant ⟨0, ![]⟩ .f32 0x00000000#32))

/-- The read-out: messages with the projection weights, times the mask column spread over the features. -/
def hReadout (wf : DotDims.WF (⟨3, ![B, n, d]⟩ : Shape) (⟨2, ![d, e]⟩ : Shape) (⟨3, ![B, n, e]⟩ : Shape) [2] [0] [0, 1] [1] [] [])
    (hb1 : (⟨1, ![e]⟩ : Shape).BroadcastsInDim ⟨3, ![1, 1, e]⟩ ![2])
    (hb2 : (⟨3, ![1, 1, e]⟩ : Shape).BroadcastsInDim ⟨3, ![B, n, e]⟩ ![0, 1, 2])
    (hk : (⟨3, ![B, n, 1]⟩ : Shape).BroadcastsInDim ⟨3, ![B, n, e]⟩ ![0, 1, 2])
    (h : FVec F ⟨3, ![B, n, d]⟩ .f32) (w : FVec F ⟨2, ![d, e]⟩ .f32) (β : FVec F ⟨1, ![e]⟩ .f32)
    (mask : FVec F ⟨3, ![B, n, 1]⟩ .f32) : FVec F ⟨3, ![B, n, e]⟩ .f32 :=
  mulf (hMsg wf hb1 hb2 h w β) (broadcastInDim ⟨3, ![B, n, e]⟩ ![0, 1, 2] hk mask)

end Defs

/-! ## Graph by graph, on the extended reals -/

section Reads

variable {B n f d e : ℕ}

theorem hEmbed_graph
    (wf : DotDims.WF (⟨3, ![B, n, f]⟩ : Shape) (⟨2, ![f, d]⟩ : Shape) (⟨3, ![B, n, d]⟩ : Shape) [2] [0] [0, 1] [1] [] [])
    (x : FVec Ideal ⟨3, ![B, n, f]⟩ .f32) (we : FVec Ideal ⟨2, ![f, d]⟩ .f32) (p : Fin B) :
    graph p (Host.dotGeneral (rowsDims wf) none x we) = matMul (graph p x) (mat we) := by
  funext r c
  unfold graph matMul mat
  exact rows_dotGeneral_apply wf none .single x we p r c

theorem hMsg_graph
    (wf : DotDims.WF (⟨3, ![B, n, d]⟩ : Shape) (⟨2, ![d, e]⟩ : Shape) (⟨3, ![B, n, e]⟩ : Shape) [2] [0] [0, 1] [1] [] [])
    (hb1 : (⟨1, ![e]⟩ : Shape).BroadcastsInDim ⟨3, ![1, 1, e]⟩ ![2])
    (hb2 : (⟨3, ![1, 1, e]⟩ : Shape).BroadcastsInDim ⟨3, ![B, n, e]⟩ ![0, 1, 2])
    (h : FVec Ideal ⟨3, ![B, n, d]⟩ .f32) (w : FVec Ideal ⟨2, ![d, e]⟩ .f32) (β : FVec Ideal ⟨1, ![e]⟩ .f32) (p : Fin B) :
    graph p (hMsg wf hb1 hb2 h w β) = fun r c => matMul (graph p h) (mat w) r c + vec β c := by
  funext r c
  unfold graph hMsg matMul mat vec
  exact congrArg₂ (· + ·) (rows_dotGeneral_apply wf none .single h w p r c) (HostLayout.bias3_apply β hb1 hb2 p r c)

theorem hConv_graph
    (wfr : DotDims.WF (⟨3, ![B, n, d]⟩ : Shape) (⟨2, ![d, d]⟩ : Shape) (⟨3, ![B, n, d]⟩ : Shape) [2] [0] [0, 1] [1] [] [])
    (wfs : DotDims.WF (⟨3, ![B, n, n]⟩ : Shape) (⟨3, ![B, n, d]⟩ : Shape) (⟨3, ![B, n, d]⟩ : Shape) [2] [1] [1] [2] [0] [0])
    (hb1 : (⟨1, ![d]⟩ : Shape).BroadcastsInDim ⟨3, ![1, 1, d]⟩ ![2])
    (hb2 : (⟨3, ![1, 1, d]⟩ : Shape).BroadcastsInDim ⟨3, ![B, n, d]⟩ ![0, 1, 2])
    (hs : (⟨0, ![]⟩ : Shape).BroadcastsInDim ⟨3, ![B, n, d]⟩ ![])
    (A : FVec Ideal ⟨3, ![B, n, n]⟩ .f32) (w : FVec Ideal ⟨2, ![d, d]⟩ .f32) (β : FVec Ideal ⟨1, ![d]⟩ .f32)
    (h : FVec Ideal ⟨3, ![B, n, d]⟩ .f32) (p : Fin B) :
    graph p (hConv wfr wfs hb1 hb2 hs A w β h)
      = conv (Ideal.ofBits .f32 0x3F800000#32) (Ideal.ofBits .f32 0x00000000#32) (graph p A) (mat w) (vec β) (graph p h) := by
  funext r c
  have hmsg := hMsg_graph wfr hb1 hb2 h w β p
  unfold graph hConv conv
  refine congrArg (fun z => max (Ideal.div z (Ideal.ofBits .f32 0x3F800000#32)) (Ideal.ofBits .f32 0x00000000#32)) ?_
  refine (stacked_dotGeneral_apply wfs none .single A _ p r c).trans ?_
  refine Finset.sum_congr rfl fun k _ => ?_
  exact congrArg (A (ix3 p r k) * ·) (congrFun (congrFun hmsg k) c)

theorem hReadout_graph
    (wf : DotDims.WF (⟨3, ![B, n, d]⟩ : Shape) (⟨2, ![d, e]⟩ : Shape) (⟨3, ![B, n, e]⟩ : Shape) [2] [0] [0, 1] [1] [] [])
    (hb1 : (⟨1, ![e]⟩ : Shape).BroadcastsInDim ⟨3, ![1, 1, e]⟩ ![2])
    (hb2 : (⟨3, ![1, 1, e]⟩ : Shape).BroadcastsInDim ⟨3, ![B, n, e]⟩ ![0, 1, 2])
    (hk : (⟨3, ![B, n, 1]⟩ : Shape).BroadcastsInDim ⟨3, ![B, n, e]⟩ ![0, 1, 2])
    (h : FVec Ideal ⟨3, ![B, n, d]⟩ .f32) (w : FVec Ideal ⟨2, ![d, e]⟩ .f32) (β : FVec Ideal ⟨1, ![e]⟩ .f32)
    (mask : FVec Ideal ⟨3, ![B, n, 1]⟩ .f32) (p : Fin B) :
    graph p (hReadout wf hb1 hb2 hk h w β mask) = readout (mat w) (vec β) (col p mask) (graph p h) := by
  funext r c
  have hmsg := hMsg_graph wf hb1 hb2 h w β p
  unfold readout col
  exact congrArg₂ (· * ·) (congrFun (congrFun hmsg r) c) (column_spread_apply mask hk p r c)

end Reads

end Cert.HostLayers

end
-- ==== Proof.RefValue.lean ====
/-
  What the reference program computes: the network on every graph of the stack.

  The reference's run ends with its result array at one composed term of the argument arrays (the generated run). That
  term is the host form of the network — the embedding, three graph convolutions each with its weight slab and bias row
  sliced out of their stacks, the read-out (`hostOut`, equal to the term by unfolding) — and, read graph by graph on the
  extended reals, it is the network `Gcn.gcn` of each graph's rows: the result array is `Gcn.stackOut`.
-/
import proofs.«125081_j28114855919656_2_alg».proof.Proof.Gen.ReferenceIdeal.Read
import proofs.«125081_j28114855919656_2_alg».proof.Proof.HostLayers

noncomputable section

namespace Cert.ReferenceIdeal.RefValue

open Cert.ReferenceIdeal Cert.ReferenceIdeal.Gen Idealize.ShloMosaic Idealize.ShloMosaic.TcCoe Idealize.ShloMosaic.ValueIdx
open Idealize.SL.Sem Cert.Gcn Cert.HostLayers Cert.GraphDots

/-- The reference's result as the host steps of the network, innermost first: the rows product with the embedding
    matrix, three convolutions, the read-out. -/
def hostOut (x0 : FVec Ideal S32x1024x64 .f32) (x1 : FVec Ideal S32x1024x1024 .f32) (x2 : FVec Ideal S32x1024x1 .f32) (x3 : FVec Ideal S64x128 .f32) (x4 : FVec Ideal S3x128x128 .f32) (x5 : FVec Ideal S3x128 .f32) (x6 : FVec Ideal S128x64 .f32) (x7 : FVec Ideal S64 .f32) : FVec Ideal S32x1024x64 .f32 :=
  hReadout (F := Ideal) dot_S32x1024x128_S128x64_S32x1024x64_2_0_01_1_n_n_wf bcast_S64_S1x1x64_2 bcast_S1x1x64_S32x1024x64_0_1_2
    bcast_S32x1024x1_S32x1024x64_0_1_2
    (hConv dot_S32x1024x128_S128x128_S32x1024x128_2_0_01_1_n_n_wf dot_S32x1024x1024_S32x1024x128_S32x1024x128_2_1_1_2_0_0_wf bcast_S128_S1x1x128_2 bcast_S1x1x128_S32x1024x128_0_1_2 bcast_S_S32x1024x128 x1
      (shapeCast S128x128 (extractStridedSlice S1x128x128 ![2, 0, 0] x4 slices_S3x128x128_S1x128x128_2_0_0) shapeCasts_S1x128x128_S128x128)
      (shapeCast S128 (extractStridedSlice S1x128 ![2, 0] x5 slices_S3x128_S1x128_2_0) shapeCasts_S1x128_S128)
      (hConv dot_S32x1024x128_S128x128_S32x1024x128_2_0_01_1_n_n_wf dot_S32x1024x1024_S32x1024x128_S32x1024x128_2_1_1_2_0_0_wf bcast_S128_S1x1x128_2 bcast_S1x1x128_S32x1024x128_0_1_2 bcast_S_S32x1024x128 x1
        (shapeCast S128x128 (extractStridedSlice S1x128x128 ![1, 0, 0] x4 slices_S3x128x128_S1x128x128_1_0_0) shapeCasts_S1x128x128_S128x128)
        (shapeCast S128 (extractStridedSlice S1x128 ![1, 0] x5 slices_S3x128_S1x128_1_0) shapeCasts_S1x128_S128)
        (hConv dot_S32x1024x128_S128x128_S32x1024x128_2_0_01_1_n_n_wf dot_S32x1024x1024_S32x1024x128_S32x1024x128_2_1_1_2_0_0_wf bcast_S128_S1x1x128_2 bcast_S1x1x128_S32x1024x128_0_1_2 bcast_S_S32x1024x128 x1
          (shapeCast S128x128 (extractStridedSlice S1x128x128 ![0, 0, 0] x4 slices_S3x128x128_S1x128x128_0_0_0) shapeCasts_S1x128x128_S128x128)
          (shapeCast S128 (extractStridedSlice S1x128 ![0, 0] x5 slices_S3x128_S1x128_0_0) shapeCasts_S1x128_S128)
          (Host.dotGeneral (rowsDims dot_S32x1024x64_S64x128_S32x1024x128_2_0_01_1_n_n_wf) none x0 x3))))
    x6 x7 x2

/-- The last stage of the reference's run is that term. -/
theorem stage_eq (x0 : FVec Ideal S32x1024x64 .f32) (x1 : FVec Ideal S32x1024x1024 .f32) (x2 : FVec Ideal S32x1024x1 .f32) (x3 : FVec Ideal S64x128 .f32) (x4 : FVec Ideal S3x128x128 .f32) (x5 : FVec Ideal S3x128 .f32) (x6 : FVec Ideal S128x64 .f32) (x7 : FVec Ideal S64 .f32) :
    Read.val_main_v42 (F := Ideal) x0 x1 x2 x3 x4 x5 x6 x7 = hostOut x0 x1 x2 x3 x4 x5 x6 x7 := rfl

/-- Slab `l` of the weight stack, sliced and reshaped to a matrix, by coordinates. -/
theorem slab_eq (x4 : FVec Ideal S3x128x128 .f32) (l : ℕ) (hl : l < 3)
    (hs : S3x128x128.Slices ![l, 0, 0] S1x128x128) :
    mat (shapeCast S128x128 (extractStridedSlice S1x128x128 ![l, 0, 0] x4 hs) shapeCasts_S1x128x128_S128x128)
      = slab (⟨l, hl⟩ : Fin 3) x4 :=
  funext fun j => funext fun k => HostLayout.slab3_apply x4 l hl hs shapeCasts_S1x128x128_S128x128 j k

/-- Row `l` of the bias stack, sliced and reshaped to a vector, by coordinates. -/
theorem row_eq (x5 : FVec Ideal S3x128 .f32) (l : ℕ) (hl : l < 3)
    (hs : S3x128.Slices ![l, 0] S1x128) :
    vec (shapeCast S128 (extractStridedSlice S1x128 ![l, 0] x5 hs) shapeCasts_S1x128_S128) = row (⟨l, hl⟩ : Fin 3) x5 :=
  funext fun k => HostLayout.slab2_apply x5 l hl hs shapeCasts_S1x128_S128 k

/-- Graph `b` of the reference's result is the network of graph `b`'s rows. -/
theorem hostOut_graph (x0 : FVec Ideal S32x1024x64 .f32) (x1 : FVec Ideal S32x1024x1024 .f32) (x2 : FVec Ideal S32x1024x1 .f32) (x3 : FVec Ideal S64x128 .f32) (x4 : FVec Ideal S3x128x128 .f32) (x5 : FVec Ideal S3x128 .f32) (x6 : FVec Ideal S128x64 .f32) (x7 : FVec Ideal S64 .f32) (b : Fin 32) :
    graph b (hostOut x0 x1 x2 x3 x4 x5 x6 x7)
      = gcn (Ideal.ofBits .f32 0x3F800000#32) (Ideal.ofBits .f32 0x00000000#32) (graph b x0) (graph b x1) (col b x2)
          (mat x3) (slab (⟨0, by decide⟩ : Fin 3) x4) (row (⟨0, by decide⟩ : Fin 3) x5)
          (slab (⟨1, by decide⟩ : Fin 3) x4) (row (⟨1, by decide⟩ : Fin 3) x5)
          (slab (⟨2, by decide⟩ : Fin 3) x4) (row (⟨2, by decide⟩ : Fin 3) x5) (mat x6) (vec x7) := by
  unfold hostOut gcn
  rw [hReadout_graph, hConv_graph, hConv_graph, hConv_graph, hEmbed_graph]
  rw [slab_eq x4 0 (by decide), slab_eq x4 1 (by decide), slab_eq x4 2 (by decide),
    row_eq x5 0 (by decide), row_eq x5 1 (by decide), row_eq x5 2 (by decide)]

/-- THE REFERENCE'S RESULT ARRAY is the network on every graph of the stack. -/
theorem hostOut_eq (x0 : FVec Ideal S32x1024x64 .f32) (x1 : FVec Ideal S32x1024x1024 .f32) (x2 : FVec Ideal S32x1024x1 .f32) (x3 : FVec Ideal S64x128 .f32) (x4 : FVec Ideal S3x128x128 .f32) (x5 : FVec Ideal S3x128 .f32) (x6 : FVec Ideal S128x64 .f32) (x7 : FVec Ideal S64 .f32) :
    hostOut x0 x1 x2 x3 x4 x5 x6 x7
      = stackOut (Ideal.ofBits .f32 0x3F800000#32) (Ideal.ofBits .f32 0x00000000#32) x0 x1 x2 x3 x4 x5 x6 x7 := by
  funext i
  obtain ⟨b, r, c, rfl⟩ : ∃ (b : Fin 32) (r : Fin 1024) (c : Fin 64), i = ix3 b r c := ⟨i 0, i 1, i 2, eq_ix3 i⟩
  rw [stackOut_apply]
  exact congrFun (congrFun (hostOut_graph x0 x1 x2 x3 x4 x5 x6 x7 b) r) c

end Cert.ReferenceIdeal.RefValue

end
-- ==== Proof.lean ====
/-
  A three-layer graph convolutional network on 32 graphs of 1024 nodes: a kernel that works on blocks of two graphs,
  against its reference.

  Both programs compute, for every graph, the same function of that graph's rows of the inputs (Proof/Spec.lean,
  `Gcn.gcn`): an embedding `x · Wₑ`, three convolutions `h ↦ max((A · (h · W + β)) / 1, 0)`, a read-out
  `(h · Wₚ + βₚ) · mask`. They differ in layout only. The kernel folds the two graphs of a block and their nodes into
  one row axis for every product with a weight matrix and unfolds the result, narrows the operands of its products in
  format (the identity on the extended reals), and stages the adjacency block in a scratch buffer; the reference keeps
  the stack of graphs and uses `dot_general`s that keep the two leading axes. Every product is read at coordinates as
  the same finite sum, so no algebraic law is needed and the precondition is never opened.

  • Proof/KernelLayers.lean, Proof/HostLayers.lean: each step of the network in the kernel's and in the reference's
    layout, read graph by graph as the step of `Gcn.gcn`;
  • Proof/BlockValue.lean: the block the kernel body stores is the network of its input blocks, graph by graph;
  • Proof/KernelValue.lean: point `t` writes graphs `2t`, `2t + 1`; the sixteen blocks cover the result array, which ends
    at `Gcn.stackOut` of the arguments;
  • Proof/RefValue.lean: the reference's result term is `Gcn.stackOut` of the arguments.

  The three frames are the generated ones (the reference's is its generated run with the result dropped); the ideal pass
  rewrote nothing, so the idealization claim is trivial.
-/
import proofs.«125081_j28114855919656_2_alg».proof.Defs
import proofs.«125081_j28114855919656_2_alg».proof.Proof.Gen.Kernel
import proofs.«125081_j28114855919656_2_alg».proof.Proof.Gen.Kernel.Skeleton
import proofs.«125081_j28114855919656_2_alg».proof.Proof.Gen.Kernel.Launch
import proofs.«125081_j28114855919656_2_alg».proof.Proof.Gen.Kernel.Points
import proofs.«125081_j28114855919656_2_alg».proof.Proof.Gen.Kernel.Frame
import proofs.«125081_j28114855919656_2_alg».proof.Proof.Gen.KernelIdeal
import proofs.«125081_j28114855919656_2_alg».proof.Proof.Gen.KernelIdeal.Skeleton
import proofs.«125081_j28114855919656_2_alg».proof.Proof.Gen.KernelIdeal.Launch
import proofs.«125081_j28114855919656_2_alg».proof.Proof.Gen.KernelIdeal.Points
import proofs.«125081_j28114855919656_2_alg».proof.Proof.Gen.KernelIdeal.Frame
import proofs.«125081_j28114855919656_2_alg».proof.Proof.Gen.ReferenceIdeal
import proofs.«125081_j28114855919656_2_alg».proof.Proof.Gen.KernelIdeal.Value
import proofs.«125081_j28114855919656_2_alg».proof.Proof.Gen.ReferenceIdeal.Run
import proofs.«125081_j28114855919656_2_alg».proof.Proof.Gen.ReferenceIdeal.Read
import proofs.«125081_j28114855919656_2_alg».proof.Proof.Gen.Pre_finite_inputs
import proofs.«125081_j28114855919656_2_alg».proof.Proof.KernelValue
import proofs.«125081_j28114855919656_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals the kernel's result array and the reference's are both the network on every graph of the
    argument arrays, and the two programs start from the same arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.ReferenceIdeal.RefValue.stage_eq,
    Cert.ReferenceIdeal.RefValue.hostOut_eq, (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
